-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x16 : Shape := ⟨2, ![1000000, 16]⟩
abbrev S16x16 : Shape := ⟨2, ![16, 16]⟩
abbrev S16 : Shape := ⟨1, ![16]⟩
abbrev S16x2 : Shape := ⟨2, ![16, 2]⟩
abbrev S2 : Shape := ⟨1, ![2]⟩
abbrev S_ : Shape := ⟨0, ![]⟩

class Facts : Prop where
  bcast_S_S1000000x16 : S_.BroadcastsInDim S1000000x16 (![] : Fin 0 → Fin S1000000x16.rank)
  reducesTo_S1000000x16_S_d0_1 : S1000000x16.ReducesTo [0, 1] S_
  h_S_ : 0 < S_.numel
  bcast_S_S16x16 : S_.BroadcastsInDim S16x16 (![] : Fin 0 → Fin S16x16.rank)
  reducesTo_S16x16_S_d0_1 : S16x16.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg4 : FVec F S2 .f32) (main_v13 : IVec S_ 1) (main_v16 : IVec S16x2 1) : IVec S_ 1 :=
  let main_c_5 : IVec S_ 1 := constantI S_ 1 1#1
  let main_v17 : IVec S_ 1 := (fun x v => Host.reduce IntOp.andi x v reducesTo_S16x2_S_d0_1 h_S_) main_v16 main_c_5
  let main_v18 : IVec S_ 1 := andi main_v13 main_v17
  let main_v19 : FVec F S2 .f32 := Host.absf main_arg4
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S1000000x16 .f32) (main_arg1 : FVec F S16x16 .f32) (main_arg2 : FVec F S16 .f32) (main_arg3 : FVec F S16x2 .f32) (main_arg4 : FVec F S2 .f32) : IVec S_ 1 :=
  let main_v0 : FVec F S1000000x16 .f32 := Host.absf main_arg0
  let main_cst : FVec F S_ .f32 := constant S_ .f32 0x7F800000#32
  let main_v1 : FVec F S1000000x16 .f32 := broadcastInDim S1000000x16 ![] bcast_S_S1000000x16 main_cst
  let main_v2 : IVec S1000000x16 1 := cmpf .olt main_v0 main_v1
  let main_c : IVec S_ 1 := constantI S_ 1 1#1
  let main_v3 : IVec S_ 1 := (fun x v => Host.reduce IntOp.andi x v reducesTo_S1000000x16_S_d0_1 h_S_) main_v2 main_c
  let main_v4 : FVec F S16x16 .f32 := Host.absf main_arg1
  let main_cst_0 : FVec F S_ .f32 := constant S_ .f32 0x7F800000#32
  let main_v5 : FVec F S16x16 .f32 := broadcastInDim S16x16 ![] bcast_S_S16x16 main_cst_0
  let main_v6 : IVec S16x16 1 := cmpf .olt main_v4 main_v5
  let main_c_1 : IVec S_ 1 := constantI S_ 1 1#1
  let main_v7 : IVec S_ 1 := (fun x v => Host.reduce IntOp.andi x v reducesTo_S16x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x2 .f32 := Host.absf main_arg3
  let main_cst_4 : FVec F S_ .f32 := constant S_ .f32 0x7F800000#32
  let main_v15 : FVec F S16x2 .f32 := broadcastInDim S16x2 ![] bcast_S_S16x2 main_cst_4
  let main_v16 : IVec S16x2 1 := cmpf .olt main_v14 main_v15
  fn_part1 (F := F) main_arg4 main_v13 main_v16
-- ==== Kernel.lean ====
abbrev S1000000x16 : Shape := ⟨2, ![1000000, 16]⟩
abbrev S16x16 : Shape := ⟨2, ![16, 16]⟩
abbrev S16 : Shape := ⟨1, ![16]⟩
abbrev S16x2 : Shape := ⟨2, ![16, 2]⟩
abbrev S2 : Shape := ⟨1, ![2]⟩
abbrev S16x1000000 : Shape := ⟨2, ![16, 1000000]⟩
abbrev S16x1 : Shape := ⟨2, ![16, 1]⟩
abbrev S2x16 : Shape := ⟨2, ![2, 16]⟩
abbrev S_ : Shape := ⟨0, ![]⟩
abbrev S6x16 : Shape := ⟨2, ![6, 16]⟩
abbrev S8x16 : Shape := ⟨2, ![8, 16]⟩
abbrev S6 : Shape := ⟨1, ![6]⟩
abbrev S8 : Shape := ⟨1, ![8]⟩
abbrev S8x1 : Shape := ⟨2, ![8, 1]⟩
abbrev S1000000 : Shape := ⟨1, ![1000000]⟩
abbrev S16x131072 : Shape := ⟨2, ![16, 131072]⟩
abbrev S131072 : Shape := ⟨1, ![131072]⟩
abbrev S8x131072 : Shape := ⟨2, ![8, 131072]⟩
abbrev S1x131072 : Shape := ⟨2, ![1, 131072]⟩

abbrev nBuf : Space → Nat
  | .hbm => 18
  | .vmem => 10
  | .smem => 0
  | _ => 0

abbrev bufTy : (tb : Table) → Fin (tcTables nBuf tb) → BufTy
  | .hbm, ⟨0, _⟩ => ⟨S1000000x16, .f32⟩
  | .hbm, ⟨1, _⟩ => ⟨S16x16, .f32⟩
  | .hbm, ⟨2, _⟩ => ⟨S16, .f32⟩
  | .hbm, ⟨3, _⟩ => ⟨S16x2, .f32⟩
  | .hbm, ⟨4, _⟩ => ⟨S2, .f32⟩
  | .hbm, ⟨5, _⟩ => ⟨S16x1000000, .f32⟩
  | .hbm, ⟨6, _⟩ => ⟨S16x16, .f32⟩
  | .hbm, ⟨7, _⟩ => ⟨S16x1, .f32⟩
  | .hbm, ⟨8, _⟩ => ⟨S2x16, .f32⟩
  | .hbm, ⟨9, _⟩ => ⟨S_, .f32⟩
  | .hbm, ⟨10, _⟩ => ⟨S6x16, .f32⟩
  | .hbm, ⟨11, _⟩ => ⟨S8x16, .f32⟩
  | .hbm, ⟨12, _⟩ => ⟨S_, .f32⟩
  | .hbm, ⟨13, _⟩ => ⟨S6, .f32⟩
  | .hbm, ⟨14, _⟩ => ⟨S8, .f32⟩
  | .hbm, ⟨15, _⟩ => ⟨S8x1, .f32⟩
  | .hbm, ⟨16, _⟩ => ⟨S1000000, .f32⟩
  | .hbm, ⟨17, _⟩ => ⟨S1000000, .f32⟩
  | .local _ .vmem, ⟨0, _⟩ => ⟨S16x131072, .f32⟩
  | .local _ .vmem, ⟨1, _⟩ => ⟨S16x131072, .f32⟩
  | .local _ .vmem, ⟨2, _⟩ => ⟨S16x16, .f32⟩
  | .local _ .vmem, ⟨3, _⟩ => ⟨S16x1, .f32⟩
  | .local _ .vmem, ⟨4, _⟩ => ⟨S8x16, .f32⟩
  | .local _ .vmem, ⟨5, _⟩ => ⟨S8x1, .f32⟩
  | .local _ .vmem, ⟨6, _⟩ => ⟨S131072, .f32⟩
  | .local _ .vmem, ⟨7, _⟩ => ⟨S131072, .f32⟩
  | .local _ .vmem, ⟨8, _⟩ => ⟨S131072, .f32⟩
  | .local _ .vmem, ⟨9, _⟩ => ⟨S131072, .f32⟩
  | _, _ => ⟨S1000000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_cst : Ref sig .tc := ⟨.hbm, 9, rfl⟩
abbrev main_call0_v4 : Ref sig .tc := ⟨.hbm, 10, rfl⟩
abbrev main_call0_v5 : Ref sig .tc := ⟨.hbm, 11, rfl⟩
abbrev main_call0_cst_0 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_v0_0 : Ref sig .tc := ⟨.hbm, 16, rfl⟩
abbrev main_v0_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  ![arg0.toNat]

def cc0_transform_6 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S16x131072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S131072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S131072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S1000000x16_S16x1000000_1_0 : S1000000x16.Transposes [1, 0] S16x1000000
  transposes_S16x16_S16x16_1_0 : S16x16.Transposes [1, 0] S16x16
  shapeCasts_S16_S16x1 : S16.ShapeCasts S16x1
  transposes_S16x2_S2x16_1_0 : S16x2.Transposes [1, 0] S2x16
  bcast_S_S6x16 : S_.BroadcastsInDim S6x16 (![] : Fin 0 → Fin S6x16.rank)
  concatenates_S2x16_S6x16_S8x16_d0 : Shape.Concatenates [S2x16, S6x16] S8x16 0
  bcast_S_S6 : S_.BroadcastsInDim S6 (![] : Fin 0 → Fin S6.rank)
  concatenates_S2_S6_S8_d0 : Shape.Concatenates [S2, S6] S8 0
  shapeCasts_S8_S8x1 : S8.ShapeCasts S8x1
  inb_S16x131072_S16x131072_0_0 : ∀ a, (![0, 0] : Fin 2 → Nat) a + S16x131072.size a ≤ S16x131072.size a
  h_S16x131072 : 0 < S16x131072.numel
  shapeCasts_S16x131072_S16x131072 : S16x131072.ShapeCasts S16x131072
  inb_S16x16_S16x16_0_0 : ∀ a, (![0, 0] : Fin 2 → Nat) a + S16x16.size a ≤ S16x16.size a
  h_S16x16 : 0 < S16x16.numel
  shapeCasts_S16x16_S16x16 : S16x16.ShapeCasts S16x16
  inb_S16x1_S16x1_0_0 : ∀ a, (![0, 0] : Fin 2 → Nat) a + S16x1.size a ≤ S16x1.size a
  h_S16x1 : 0 < S16x1.numel
  shapeCasts_S16x1_S16x1 : S16x1.ShapeCasts S16x1
  broadcasts_S16x1_S16x131072 : S16x1.Broadcasts S16x131072
  inb_S8x16_S8x16_0_0 : ∀ a, (![0, 0] : Fin 2 → Nat) a + S8x16.size a ≤ S8x16.size a
  h_S8x16 : 0 < S8x16.numel
  shapeCasts_S8x16_S8x16 : S8x16.ShapeCasts S8x16
  inb_S8x1_S8x1_0_0 : ∀ a, (![0, 0] : Fin 2 → Nat) a + S8x1.size a ≤ S8x1.size a
  h_S8x1 : 0 < S8x1.numel
  shapeCasts_S8x1_S8x1 : S8x1.ShapeCasts S8x1
  broadcasts_S8x1_S8x131072 : S8x1.Broadcasts S8x131072
  slices_S8x131072_o0_0_S1x131072 : S8x131072.Slices ![0, 0] S1x131072
  shapeCasts_S1x131072_S131072 : S1x131072.ShapeCasts S131072
  inb_S131072_S131072_0 : ∀ a, (![0] : Fin 1 → Nat) a + S131072.size a ≤ S131072.size a
  h_S131072 : 0 < S131072.numel
  slices_S8x131072_o1_0_S1x131072 : S8x131072.Slices ![1, 0] S1x131072
  dot_S16x16_S16x131072_S16x131072_1_0_0_1_n_n_wf : DotDims.WF S16x16 S16x131072 S16x131072 [1] [0] [0] [1] [] []
  dot_S8x16_S16x131072_S8x131072_1_0_0_1_n_n_wf : DotDims.WF S8x16 S16x131072 S8x131072 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S16x131072.size a < S16x1000000.size a
  hwx0_0 : ∀ i : grid0.Coords, EltTy.bits .f32 = 32 ∨ (Rect.unit (s := S16x1000000) (fun a => cc0_transform_0 i a * S16x131072.size a) (fun a => (Pipeline.Clip.of (cc0_transform_0 i a) (S16x131072.size a) (S16x1000000.size a)).extent (S16x131072.size a)) fun a => Pipeline.Clip.inb (Pipeline.Clip.ok_of (hstart0_0 i a))).WholeWords (EltTy.packing .f32)
  hwxs0_0 : ∀ i : grid0.Coords, EltTy.bits .f32 = 32 ∨ (Rect.unit (s := S16x131072) (fun _ => 0) (fun a => (Pipeline.Clip.of (cc0_transform_0 i a) (S16x131072.size a) (S16x1000000.size a)).extent (S16x131072.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x16.size a ≤ S16x16.size a
  hwx0_1 : ∀ i : grid0.Coords, EltTy.bits .f32 = 32 ∨ (Rect.block (s := S16x16) S16x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x1.size a ≤ S16x1.size a
  hwx0_2 : ∀ i : grid0.Coords, EltTy.bits .f32 = 32 ∨ (Rect.block (s := S16x1) S16x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x16.size a ≤ S8x16.size a
  hwx0_3 : ∀ i : grid0.Coords, EltTy.bits .f32 = 32 ∨ (Rect.block (s := S8x16) S8x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x1.size a ≤ S8x1.size a
  hwx0_4 : ∀ i : grid0.Coords, EltTy.bits .f32 = 32 ∨ (Rect.block (s := S8x1) S8x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S131072.size a < S1000000.size a
  hwx0_5 : ∀ i : grid0.Coords, EltTy.bits .f32 = 32 ∨ (Rect.unit (s := S1000000) (fun a => cc0_transform_5 i a * S131072.size a) (fun a => (Pipeline.Clip.of (cc0_transform_5 i a) (S131072.size a) (S1000000.size a)).extent (S131072.size a)) fun a => Pipeline.Clip.inb (Pipeline.Clip.ok_of (hstart0_5 i a))).WholeWords (EltTy.packing .f32)
  hwxs0_5 : ∀ i : grid0.Coords, EltTy.bits .f32 = 32 ∨ (Rect.unit (s := S131072) (fun _ => 0) (fun a => (Pipeline.Clip.of (cc0_transform_5 i a) (S131072.size a) (S1000000.size a)).extent (S131072.size a)) fun a => (Nat.zero_add _).trans_le (Pipeline.Clip.extent_le (Pipeline.Clip.ok_of (hstart0_5 i a)))).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hstart0_6 : ∀ (i : grid0.Coords) a, cc0_transform_6 i a * S131072.size a < S1000000.size a
  hwx0_6 : ∀ i : grid0.Coords, EltTy.bits .f32 = 32 ∨ (Rect.unit (s := S1000000) (fun a => cc0_transform_6 i a * S131072.size a) (fun a => (Pipeline.Clip.of (cc0_transform_6 i a) (S131072.size a) (S1000000.size a)).extent (S131072.size a)) fun a => Pipeline.Clip.inb (Pipeline.Clip.ok_of (hstart0_6 i a))).WholeWords (EltTy.packing .f32)
  hwxs0_6 : ∀ i : grid0.Coords, EltTy.bits .f32 = 32 ∨ (Rect.unit (s := S131072) (fun _ => 0) (fun a => (Pipeline.Clip.of (cc0_transform_6 i a) (S131072.size a) (S1000000.size a)).extent (S131072.size a)) fun a => (Nat.zero_add _).trans_le (Pipeline.Clip.extent_le (Pipeline.Clip.ok_of (hstart0_6 i a)))).WholeWords (EltTy.packing .f32)

variable [Facts₀]

def dot_S16x16_S16x131072_S16x131072_1_0_0_1_n_n : DotDims S16x16 S16x131072 S16x131072 where
  lhsContracting := [1]
  rhsContracting := [0]
  lhsNonContracting := [0]
  rhsNonContracting := [1]
  lhsBatch := []
  rhsBatch := []
  wf := dot_S16x16_S16x131072_S16x131072_1_0_0_1_n_n_wf
def dot_S8x16_S16x131072_S8x131072_1_0_0_1_n_n : DotDims S8x16 S16x131072 S8x131072 where
  lhsContracting := [1]
  rhsContracting := [0]
  lhsNonContracting := [0]
  rhsNonContracting := [1]
  lhsBatch := []
  rhsBatch := []
  wf := dot_S8x16_S16x131072_S8x131072_1_0_0_1_n_n_wf

abbrev win0_0 : Pipeline.Window sig grid0 :=
  Pipeline.Window.ofSpecClip (Memref.whole main_call0_v0) S16x131072.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_call0_v1) S16x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S16x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v5) S8x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v8) S8x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpecClip (Memref.whole main_v0_0) S131072.size cc0_transform_5 reads0_5 true false 2 stage0_5 sem0_5
    hrank0 hreads0_5 hstart0_5 nbuf0_5 (Memref.isWhole_whole _) hwx0_5 hwxs0_5 hstage0_5

abbrev win0_6 : Pipeline.Window sig grid0 :=
  Pipeline.Window.ofSpecClip (Memref.whole main_v0_1) S131072.size cc0_transform_6 reads0_6 true false 2 stage0_6 sem0_6
    hrank0 hreads0_6 hstart0_6 nbuf0_6 (Memref.isWhole_whole _) hwx0_6 hwxs0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1000000x16 : Shape := ⟨2, ![1000000, 16]⟩
abbrev S16x16 : Shape := ⟨2, ![16, 16]⟩
abbrev S16 : Shape := ⟨1, ![16]⟩
abbrev S16x2 : Shape := ⟨2, ![16, 2]⟩
abbrev S2 : Shape := ⟨1, ![2]⟩
abbrev S1x16 : Shape := ⟨2, ![1, 16]⟩
abbrev S_ : Shape := ⟨0, ![]⟩
abbrev S1000000x2 : Shape := ⟨2, ![1000000, 2]⟩
abbrev S1x2 : Shape := ⟨2, ![1, 2]⟩
abbrev S1000000x1 : Shape := ⟨2, ![1000000, 1]⟩
abbrev S1000000 : Shape := ⟨1, ![1000000]⟩

abbrev nBuf : Space → Nat
  | .hbm => 24
  | .vmem => 0
  | .smem => 0
  | _ => 0

abbrev bufTy : (tb : Table) → Fin (tcTables nBuf tb) → BufTy
  | .hbm, ⟨0, _⟩ => ⟨S1000000x16, .f32⟩
  | .hbm, ⟨1, _⟩ => ⟨S16x16, .f32⟩
  | .hbm, ⟨2, _⟩ => ⟨S16, .f32⟩
  | .hbm, ⟨3, _⟩ => ⟨S16x2, .f32⟩
  | .hbm, ⟨4, _⟩ => ⟨S2, .f32⟩
  | .hbm, ⟨5, _⟩ => ⟨S1000000x16, .f32⟩
  | .hbm, ⟨6, _⟩ => ⟨S1x16, .f32⟩
  | .hbm, ⟨7, _⟩ => ⟨S1000000x16, .f32⟩
  | .hbm, ⟨8, _⟩ => ⟨S1000000x16, .f32⟩
  | .hbm, ⟨9, _⟩ => ⟨S_, .f32⟩
  | .hbm, ⟨10, _⟩ => ⟨S1000000x16, .f32⟩
  | .hbm, ⟨11, _⟩ => ⟨S1000000x16, .i1⟩
  | .hbm, ⟨12, _⟩ => ⟨S_, .f32⟩
  | .hbm, ⟨13, _⟩ => ⟨S1000000x16, .f32⟩
  | .hbm, ⟨14, _⟩ => ⟨S1000000x16, .f32⟩
  | .hbm, ⟨15, _⟩ => ⟨S1000000x16, .f32⟩
  | .hbm, ⟨16, _⟩ => ⟨S1000000x2, .f32⟩
  | .hbm, ⟨17, _⟩ => ⟨S1x2, .f32⟩
  | .hbm, ⟨18, _⟩ => ⟨S1000000x2, .f32⟩
  | .hbm, ⟨19, _⟩ => ⟨S1000000x2, .f32⟩
  | .hbm, ⟨20, _⟩ => ⟨S1000000x1, .f32⟩
  | .hbm, ⟨21, _⟩ => ⟨S1000000, .f32⟩
  | .hbm, ⟨22, _⟩ => ⟨S1000000x1, .f32⟩
  | .hbm, ⟨23, _⟩ => ⟨S1000000, .f32⟩
  | _, _ => ⟨S1000000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S1000000x16_0_1 : S1x16.BroadcastsInDim S1000000x16 (![0, 1] : Fin 2 → Fin S1000000x16.rank)
  bcast_S_S1000000x16 : S_.BroadcastsInDim S1000000x16 (![] : Fin 0 → Fin S1000000x16.rank)
  bcast_S2_S1x2_1 : S2.BroadcastsInDim S1x2 (![1] : Fin 1 → Fin S1x2.rank)
  bcast_S1x2_S1000000x2_0_1 : S1x2.BroadcastsInDim S1000000x2 (![0, 1] : Fin 2 → Fin S1000000x2.rank)
  slices_S1000000x2_S1000000x1_0_0 : S1000000x2.Slices ![0, 0] S1000000x1
  shapeCasts_S1000000x1_S1000000 : S1000000x1.ShapeCasts S1000000
  slices_S1000000x2_S1000000x1_0_1 : S1000000x2.Slices ![0, 1] S1000000x1
  dot_S1000000x16_S16x16_S1000000x16_1_0_0_1_n_n_wf : DotDims.WF S1000000x16 S16x16 S1000000x16 [1] [0] [0] [1] [] []
  dot_S1000000x16_S16x2_S1000000x2_1_0_0_1_n_n_wf : DotDims.WF S1000000x16 S16x2 S1000000x2 [1] [0] [0] [1] [] []

variable [Facts₀]

def dot_S1000000x16_S16x16_S1000000x16_1_0_0_1_n_n : DotDims S1000000x16 S16x16 S1000000x16 where
  lhsContracting := [1]
  rhsContracting := [0]
  lhsNonContracting := [0]
  rhsNonContracting := [1]
  lhsBatch := []
  rhsBatch := []
  wf := dot_S1000000x16_S16x16_S1000000x16_1_0_0_1_n_n_wf
def dot_S1000000x16_S16x2_S1000000x2_1_0_0_1_n_n : DotDims S1000000x16 S16x2 S1000000x2 where
  lhsContracting := [1]
  rhsContracting := [0]
  lhsNonContracting := [0]
  rhsNonContracting := [1]
  lhsBatch := []
  rhsBatch := []
  wf := dot_S1000000x16_S16x2_S1000000x2_1_0_0_1_n_n_wf

class Facts : Prop extends Facts₀ where

variable [Facts]
-- ==== Proof.WordBody.lean ====
/-
  The kernel body as a Hoare triple over ARBITRARY contents of the seven staging buffers it is called on.
  The body loads the five input buffers whole (the 16 x 131072 slab of transposed rows, the two weight
  matrices, the two bias columns), computes two rows of 131072 results from them, and stores each row whole
  into one of the two output buffers. So whatever the buffers hold when the body starts, the five inputs are
  left as found and the two outputs end holding the two result rows as functions of the five inputs' contents.
  Nothing here depends on the float instance.
-/
import proofs.«142265_g89618787598748_cont_9to1c4b_779_6_alg».proof.Proof.Gen.Kernel.Launch
import proofs.«142265_g89618787598748_cont_9to1c4b_779_6_alg».proof.Proof.Gen.Kernel.Skeleton
import proofs.«142265_g89618787598748_cont_9to1c4b_779_6_alg».proof.Proof.Gen.Kernel.Points
import Idealize.ShloMosaic.Lib.Pipeline.Kit
import Idealize.ShloMosaic.Lib.Tactic

set_option maxRecDepth 65536

noncomputable section

namespace Cert.Kernel.Body

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

/-- The kernel's variants: none. -/
abbrev 𝒱₀ : Variants := Variants.none

/-- The two-axis and one-axis zero offsets, as the printed accesses spell them. -/
theorem hz2 : (![0, 0] : Fin 2 → Nat) = fun _ => 0 := funext fun a => by fin_cases a <;> rfl
theorem hz1 : (![0] : Fin 1 → Nat) = fun _ => 0 := funext fun a => by fin_cases a; rfl

/-! ## Whole-buffer accesses

Every access of the body is at zero offsets and the buffer's own extents: a load reads the buffer's contents, an
unmasked store replaces them. One lemma per staging buffer. -/

theorem rd_0_0 : (Memref.whole cc0_stg0_0 : Memref sig .tc _ _ _).view.readAt (Elt F) (Rect.unit (s := S16x131072) ![0, 0] S16x131072.size
    inb_S16x131072_S16x131072_0_0).toLoadRect = id := funext (Memref.readAt_unit_zero (Elt F) cc0_stg0_0 hz2 _)
theorem rd_0_1 : (Memref.whole cc0_stg0_1 : Memref sig .tc _ _ _).view.readAt (Elt F) (Rect.unit (s := S16x131072) ![0, 0] S16x131072.size
    inb_S16x131072_S16x131072_0_0).toLoadRect = id := funext (Memref.readAt_unit_zero (Elt F) cc0_stg0_1 hz2 _)
theorem rd_1_0 : (Memref.whole cc0_stg1_0 : Memref sig .tc _ _ _).view.readAt (Elt F) (Rect.unit (s := S16x16) ![0, 0] S16x16.size
    inb_S16x16_S16x16_0_0).toLoadRect = id := funext (Memref.readAt_unit_zero (Elt F) cc0_stg1_0 hz2 _)
theorem rd_2_0 : (Memref.whole cc0_stg2_0 : Memref sig .tc _ _ _).view.readAt (Elt F) (Rect.unit (s := S16x1) ![0, 0] S16x1.size
    inb_S16x1_S16x1_0_0).toLoadRect = id := funext (Memref.readAt_unit_zero (Elt F) cc0_stg2_0 hz2 _)
theorem rd_3_0 : (Memref.whole cc0_stg3_0 : Memref sig .tc _ _ _).view.readAt (Elt F) (Rect.unit (s := S8x16) ![0, 0] S8x16.size
    inb_S8x16_S8x16_0_0).toLoadRect = id := funext (Memref.readAt_unit_zero (Elt F) cc0_stg3_0 hz2 _)
theorem rd_4_0 : (Memref.whole cc0_stg4_0 : Memref sig .tc _ _ _).view.readAt (Elt F) (Rect.unit (s := S8x1) ![0, 0] S8x1.size
    inb_S8x1_S8x1_0_0).toLoadRect = id := funext (Memref.readAt_unit_zero (Elt F) cc0_stg4_0 hz2 _)
theorem wr_5_0 (f w) : (((Memref.whole cc0_stg5_0).access (Rect.unit (s := S131072) ![0] S131072.size inb_S131072_S131072_0)) :
    View sig .tc _ _ _).write (Elt F) f w Finset.univ = w := Memref.write_access_unit_zero_univ (Elt F) cc0_stg5_0 hz1 _ f w
theorem wr_5_1 (f w) : (((Memref.whole cc0_stg5_1).access (Rect.unit (s := S131072) ![0] S131072.size inb_S131072_S131072_0)) :
    View sig .tc _ _ _).write (Elt F) f w Finset.univ = w := Memref.write_access_unit_zero_univ (Elt F) cc0_stg5_1 hz1 _ f w
theorem wr_6_0 (f w) : (((Memref.whole cc0_stg6_0).access (Rect.unit (s := S131072) ![0] S131072.size inb_S131072_S131072_0)) :
    View sig .tc _ _ _).write (Elt F) f w Finset.univ = w := Memref.write_access_unit_zero_univ (Elt F) cc0_stg6_0 hz1 _ f w
theorem wr_6_1 (f w) : (((Memref.whole cc0_stg6_1).access (Rect.unit (s := S131072) ![0] S131072.size inb_S131072_S131072_0)) :
    View sig .tc _ _ _).write (Elt F) f w Finset.univ = w := Memref.write_access_unit_zero_univ (Elt F) cc0_stg6_1 hz1 _ f w

/-! ## The body's triple -/

set_option maxHeartbeats 4000000 in
/-- The body on staging buffers `s0 … s6` of the seven windows, holding `X0 … X6`: the five inputs are left as
    found, the two outputs end at the two result rows of the inputs' contents. -/
theorem sound_body (c : Dev nD) (E : Set ℕ) (i : grid0.Coords) (s0 : Fin 2) (s1 s2 s3 s4 : Fin 1) (s5 s6 : Fin 2)
    (X0 : S16x131072.Idx → Elt F .f32) (X1 : S16x16.Idx → Elt F .f32) (X2 : S16x1.Idx → Elt F .f32)
    (X3 : S8x16.Idx → Elt F .f32) (X4 : S8x1.Idx → Elt F .f32) (X5 X6 : S131072.Idx → Elt F .f32) (K : PUnit → sProp 𝕄) :
    iprop((owns (c : Thread nD τ) (stage0_0 s0) fullShare X0 ∗ owns (c : Thread nD τ) (stage0_1 s1) fullShare X1
            ∗ owns (c : Thread nD τ) (stage0_2 s2) fullShare X2 ∗ owns (c : Thread nD τ) (stage0_3 s3) fullShare X3
            ∗ owns (c : Thread nD τ) (stage0_4 s4) fullShare X4 ∗ owns (c : Thread nD τ) (stage0_5 s5) fullShare X5
            ∗ owns (c : Thread nD τ) (stage0_6 s6) fullShare X6)
          ∗ (iprop(owns (c : Thread nD τ) (stage0_0 s0) fullShare X0 ∗ owns (c : Thread nD τ) (stage0_1 s1) fullShare X1
            ∗ owns (c : Thread nD τ) (stage0_2 s2) fullShare X2 ∗ owns (c : Thread nD τ) (stage0_3 s3) fullShare X3
            ∗ owns (c : Thread nD τ) (stage0_4 s4) fullShare X4
            ∗ owns (c : Thread nD τ) (stage0_5 s5) fullShare (k0_pay2 (F := F) X0 X1 X2 X3 X4)
            ∗ owns (c : Thread nD τ) (stage0_6 s6) fullShare (k0_pay3 (F := F) X0 X1 X2 X3 X4)) -∗ K ⟨⟩))
      ⊢ wp frame (wpE (defs₀ (F := F)) 𝒱₀ c none) E
          (cc0__mlp_body i (stage0_0 s0) (hstage0_0 s0) (stage0_1 s1) (hstage0_1 s1) (stage0_2 s2) (hstage0_2 s2)
            (stage0_3 s3) (hstage0_3 s3) (stage0_4 s4) (hstage0_4 s4) (stage0_5 s5) (hstage0_5 s5) (stage0_6 s6) (hstage0_6 s6)) K := by
  -- which of its window's buffers each memref is: two choices for the slab and for each output row, one for the rest
  fin_cases s0 <;> fin_cases s1 <;> fin_cases s2 <;> fin_cases s3 <;> fin_cases s4 <;> fin_cases s5 <;> fin_cases s6
  all_goals (
    simp only [owns_whole_eq, cc0__mlp_body_eq_skeleton]; unfold cc0__mlp_body_skel
    simp only [Prog.lift, Prog.bind_op, Prog.bind_ret]
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, Hk⟩
    sl_steps
    iapply Hk
    (first | rw [rd_0_0] | rw [rd_0_1])
    rw [rd_1_0, rd_2_0, rd_3_0, rd_4_0]
    (first | rw [wr_5_0] | rw [wr_5_1])
    (first | rw [wr_6_0] | rw [wr_6_1])
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    isplitl [H3]
    · iexists f3; isplitr; · ipureintro; exact hf3
      iexact H3
    isplitl [H4]
    · iexists f4; isplitr; · ipureintro; exact hf4
      iexact H4
    isplitl [H5]
    · iexists k0_pay2 (F := F) f0 f1 f2 f3 f4; isplitr; · ipureintro; rw [hf0, hf1, hf2, hf3, hf4]
      iexact H5
    · iexists k0_pay3 (F := F) f0 f1 f2 f3 f4; isplitr; · ipureintro; rw [hf0, hf1, hf2, hf3, hf4]
      iexact H6)

end Cert.Kernel.Body

end
-- ==== Proof.WordFrame.lean ====
/-
  The frame of the program from a run that says nothing of what the staging buffers hold: the body neither
  branches on nor checks anything it loads, so it runs to its end whatever its seven buffers contain, and the
  argument arrays are none of the arrays the pipeline stages (those are the host's transposed and padded copies),
  so they end as launched. The proof data constrain no window: every relation is `True`.
-/
import proofs.«142265_g89618787598748_cont_9to1c4b_779_6_alg».proof.Proof.WordBody
import proofs.«142265_g89618787598748_cont_9to1c4b_779_6_alg».proof.Proof.Gen.Kernel.Frame
import Idealize.ShloMosaic.Lib.Pipeline.Frame

set_option maxRecDepth 16384

noncomputable section

namespace Cert.Kernel.Rel

open Cert.Kernel Cert.Kernel.Gen Cert.Kernel.Body

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf kernel pipe)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Relational proof data that constrain nothing: the arrays at their contents on entry to the region, any contents
    left in any staging buffer, the class invariant, full shares, nothing owed. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- The body obligation: whatever the seven buffers hold the body runs, and leaves them holding something. -/
theorem body_obligation (c : Dev nD) : (rdat m c).BodyObligation (defs₀ (F := F)) 𝒱₀ () Set.univ := fun t Y _ => by
  rw [bigSep_W0, bigSep_W0]
  rw [show (rdat m c).Φ t.succ = (rdat m c).Φ t.castSucc from rfl,
    show (rdat m c).owesAt () t.succ = (rdat m c).owesAt () t.castSucc from rfl]
  iintro ⟨HΦ, Ho, H0, H1, H2, H3, H4, H5, H6⟩
  iapply (sound_body (F := F) c Set.univ (grid0.coords t) (cfg0.slots t 0) (cfg0.slots t 1) (cfg0.slots t 2) (cfg0.slots t 3)
    (cfg0.slots t 4) (cfg0.slots t 5) (cfg0.slots t 6) (Y 0) (Y 1) (Y 2) (Y 3) (Y 4) (Y 5) (Y 6) _)
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  iintro ⟨H0, H1, H2, H3, H4, H5, H6⟩
  isplitl [HΦ]; · iexact HΦ
  isplitl [Ho]; · iexact Ho
  isplitl [H0]
  · iexists (Y 0); isplitr; · ipureintro; trivial
    iexact H0
  isplitl [H1]
  · iexists (Y 1); isplitr; · ipureintro; trivial
    iexact H1
  isplitl [H2]
  · iexists (Y 2); isplitr; · ipureintro; trivial
    iexact H2
  isplitl [H3]
  · iexists (Y 3); isplitr; · ipureintro; trivial
    iexact H3
  isplitl [H4]
  · iexists (Y 4); isplitr; · ipureintro; trivial
    iexact H4
  isplitl [H5]
  · iexists k0_pay2 (F := F) (Y 0) (Y 1) (Y 2) (Y 3) (Y 4); isplitr; · ipureintro; trivial
    iexact H5
  · iexists k0_pay3 (F := F) (Y 0) (Y 1) (Y 2) (Y 3) (Y 4); isplitr; · ipureintro; trivial
    iexact H6

/-- The run: every weakly fair execution of @main terminates, faulting nowhere, every buffer that is no window's
    array holding what it held when the region was entered. -/
theorem run_main : θ_run defs (onTc (τ := τ) (main (F := F))) (s₀ m ρ) (RDat.FramePost cfg0 (rdat m) (V m)) :=
  RDat.θ_run_frame cfgs 0 launch0 defs₀ 𝒱₀ (rdat m) m ρ main
    (hbody := body_obligation m)
    (hshare := fun c w => by unfold RDat.share; split <;> rfl) (howed := fun _ _ => rfl)
    (V := V m) (hmain := hmain m 𝒱₀) (hA := fun _ _ => rfl) (hΦ := fun _ _ => rfl)

/-- The frame: the five argument arrays are no window's array and no host operation before the region writes them. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run_main m ρ)

end Cert.Kernel.Rel

end
-- ==== Proof.Body.lean ====
/-
  The kernel body as a Hoare triple over ARBITRARY contents of the seven staging buffers it is called on.
  The body loads the five input buffers whole (the 16 x 131072 slab of transposed rows, the two weight
  matrices, the two bias columns), computes two rows of 131072 results from them, and stores each row whole
  into one of the two output buffers. So whatever the buffers hold when the body starts, the five inputs are
  left as found and the two outputs end holding the two result rows as functions of the five inputs' contents.
  Nothing here depends on the float instance.
-/
import proofs.«142265_g89618787598748_cont_9to1c4b_779_6_alg».proof.Proof.Gen.KernelIdeal.Launch
import proofs.«142265_g89618787598748_cont_9to1c4b_779_6_alg».proof.Proof.Gen.KernelIdeal.Skeleton
import proofs.«142265_g89618787598748_cont_9to1c4b_779_6_alg».proof.Proof.Gen.KernelIdeal.Points
import Idealize.ShloMosaic.Lib.Pipeline.Kit
import Idealize.ShloMosaic.Lib.Tactic

set_option maxRecDepth 65536

noncomputable section

namespace Cert.KernelIdeal.Body

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

/-- The kernel's variants: none. -/
abbrev 𝒱₀ : Variants := Variants.none

/-- The two-axis and one-axis zero offsets, as the printed accesses spell them. -/
theorem hz2 : (![0, 0] : Fin 2 → Nat) = fun _ => 0 := funext fun a => by fin_cases a <;> rfl
theorem hz1 : (![0] : Fin 1 → Nat) = fun _ => 0 := funext fun a => by fin_cases a; rfl

/-! ## Whole-buffer accesses

Every access of the body is at zero offsets and the buffer's own extents: a load reads the buffer's contents, an
unmasked store replaces them. One lemma per staging buffer. -/

theorem rd_0_0 : (Memref.whole cc0_stg0_0 : Memref sig .tc _ _ _).view.readAt (Elt F) (Rect.unit (s := S16x131072) ![0, 0] S16x131072.size
    inb_S16x131072_S16x131072_0_0).toLoadRect = id := funext (Memref.readAt_unit_zero (Elt F) cc0_stg0_0 hz2 _)
theorem rd_0_1 : (Memref.whole cc0_stg0_1 : Memref sig .tc _ _ _).view.readAt (Elt F) (Rect.unit (s := S16x131072) ![0, 0] S16x131072.size
    inb_S16x131072_S16x131072_0_0).toLoadRect = id := funext (Memref.readAt_unit_zero (Elt F) cc0_stg0_1 hz2 _)
theorem rd_1_0 : (Memref.whole cc0_stg1_0 : Memref sig .tc _ _ _).view.readAt (Elt F) (Rect.unit (s := S16x16) ![0, 0] S16x16.size
    inb_S16x16_S16x16_0_0).toLoadRect = id := funext (Memref.readAt_unit_zero (Elt F) cc0_stg1_0 hz2 _)
theorem rd_2_0 : (Memref.whole cc0_stg2_0 : Memref sig .tc _ _ _).view.readAt (Elt F) (Rect.unit (s := S16x1) ![0, 0] S16x1.size
    inb_S16x1_S16x1_0_0).toLoadRect = id := funext (Memref.readAt_unit_zero (Elt F) cc0_stg2_0 hz2 _)
theorem rd_3_0 : (Memref.whole cc0_stg3_0 : Memref sig .tc _ _ _).view.readAt (Elt F) (Rect.unit (s := S8x16) ![0, 0] S8x16.size
    inb_S8x16_S8x16_0_0).toLoadRect = id := funext (Memref.readAt_unit_zero (Elt F) cc0_stg3_0 hz2 _)
theorem rd_4_0 : (Memref.whole cc0_stg4_0 : Memref sig .tc _ _ _).view.readAt (Elt F) (Rect.unit (s := S8x1) ![0, 0] S8x1.size
    inb_S8x1_S8x1_0_0).toLoadRect = id := funext (Memref.readAt_unit_zero (Elt F) cc0_stg4_0 hz2 _)
theorem wr_5_0 (f w) : (((Memref.whole cc0_stg5_0).access (Rect.unit (s := S131072) ![0] S131072.size inb_S131072_S131072_0)) :
    View sig .tc _ _ _).write (Elt F) f w Finset.univ = w := Memref.write_access_unit_zero_univ (Elt F) cc0_stg5_0 hz1 _ f w
theorem wr_5_1 (f w) : (((Memref.whole cc0_stg5_1).access (Rect.unit (s := S131072) ![0] S131072.size inb_S131072_S131072_0)) :
    View sig .tc _ _ _).write (Elt F) f w Finset.univ = w := Memref.write_access_unit_zero_univ (Elt F) cc0_stg5_1 hz1 _ f w
theorem wr_6_0 (f w) : (((Memref.whole cc0_stg6_0).access (Rect.unit (s := S131072) ![0] S131072.size inb_S131072_S131072_0)) :
    View sig .tc _ _ _).write (Elt F) f w Finset.univ = w := Memref.write_access_unit_zero_univ (Elt F) cc0_stg6_0 hz1 _ f w
theorem wr_6_1 (f w) : (((Memref.whole cc0_stg6_1).access (Rect.unit (s := S131072) ![0] S131072.size inb_S131072_S131072_0)) :
    View sig .tc _ _ _).write (Elt F) f w Finset.univ = w := Memref.write_access_unit_zero_univ (Elt F) cc0_stg6_1 hz1 _ f w

/-! ## The body's triple -/

set_option maxHeartbeats 4000000 in
/-- The body on staging buffers `s0 … s6` of the seven windows, holding `X0 … X6`: the five inputs are left as
    found, the two outputs end at the two result rows of the inputs' contents. -/
theorem sound_body (c : Dev nD) (E : Set ℕ) (i : grid0.Coords) (s0 : Fin 2) (s1 s2 s3 s4 : Fin 1) (s5 s6 : Fin 2)
    (X0 : S16x131072.Idx → Elt F .f32) (X1 : S16x16.Idx → Elt F .f32) (X2 : S16x1.Idx → Elt F .f32)
    (X3 : S8x16.Idx → Elt F .f32) (X4 : S8x1.Idx → Elt F .f32) (X5 X6 : S131072.Idx → Elt F .f32) (K : PUnit → sProp 𝕄) :
    iprop((owns (c : Thread nD τ) (stage0_0 s0) fullShare X0 ∗ owns (c : Thread nD τ) (stage0_1 s1) fullShare X1
            ∗ owns (c : Thread nD τ) (stage0_2 s2) fullShare X2 ∗ owns (c : Thread nD τ) (stage0_3 s3) fullShare X3
            ∗ owns (c : Thread nD τ) (stage0_4 s4) fullShare X4 ∗ owns (c : Thread nD τ) (stage0_5 s5) fullShare X5
            ∗ owns (c : Thread nD τ) (stage0_6 s6) fullShare X6)
          ∗ (iprop(owns (c : Thread nD τ) (stage0_0 s0) fullShare X0 ∗ owns (c : Thread nD τ) (stage0_1 s1) fullShare X1
            ∗ owns (c : Thread nD τ) (stage0_2 s2) fullShare X2 ∗ owns (c : Thread nD τ) (stage0_3 s3) fullShare X3
            ∗ owns (c : Thread nD τ) (stage0_4 s4) fullShare X4
            ∗ owns (c : Thread nD τ) (stage0_5 s5) fullShare (k0_pay2 (F := F) X0 X1 X2 X3 X4)
            ∗ owns (c : Thread nD τ) (stage0_6 s6) fullShare (k0_pay3 (F := F) X0 X1 X2 X3 X4)) -∗ K ⟨⟩))
      ⊢ wp frame (wpE (defs₀ (F := F)) 𝒱₀ c none) E
          (cc0__mlp_body i (stage0_0 s0) (hstage0_0 s0) (stage0_1 s1) (hstage0_1 s1) (stage0_2 s2) (hstage0_2 s2)
            (stage0_3 s3) (hstage0_3 s3) (stage0_4 s4) (hstage0_4 s4) (stage0_5 s5) (hstage0_5 s5) (stage0_6 s6) (hstage0_6 s6)) K := by
  -- which of its window's buffers each memref is: two choices for the slab and for each output row, one for the rest
  fin_cases s0 <;> fin_cases s1 <;> fin_cases s2 <;> fin_cases s3 <;> fin_cases s4 <;> fin_cases s5 <;> fin_cases s6
  all_goals (
    simp only [owns_whole_eq, cc0__mlp_body_eq_skeleton]; unfold cc0__mlp_body_skel
    simp only [Prog.lift, Prog.bind_op, Prog.bind_ret]
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, Hk⟩
    sl_steps
    iapply Hk
    (first | rw [rd_0_0] | rw [rd_0_1])
    rw [rd_1_0, rd_2_0, rd_3_0, rd_4_0]
    (first | rw [wr_5_0] | rw [wr_5_1])
    (first | rw [wr_6_0] | rw [wr_6_1])
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    isplitl [H3]
    · iexists f3; isplitr; · ipureintro; exact hf3
      iexact H3
    isplitl [H4]
    · iexists f4; isplitr; · ipureintro; exact hf4
      iexact H4
    isplitl [H5]
    · iexists k0_pay2 (F := F) f0 f1 f2 f3 f4; isplitr; · ipureintro; rw [hf0, hf1, hf2, hf3, hf4]
      iexact H5
    · iexists k0_pay3 (F := F) f0 f1 f2 f3 f4; isplitr; · ipureintro; rw [hf0, hf1, hf2, hf3, hf4]
      iexact H6)

end Cert.KernelIdeal.Body

end
-- ==== Proof.LibLeaky.lean ====
/-
  The leaky rectifier on the extended reals, and a choice made by comparing with zero.

  For a real slope `0 < c ≤ 1` and EVERY extended real `z`, the infinite ones too, `max z (c · z)` is `z` where
  `0 ≤ z` and `c · z` elsewhere: for a real `z ≥ 0` one has `c·z ≤ z`, for a real `z < 0` one has `z ≤ c·z`, and
  `c · (±∞) = ±∞`. So a rectifier written with `max` and one written as a choice on the sign agree with no
  finiteness assumption. The second lemma reads that choice as the float comparison "ordered and at least" prints it.
-/
import Idealize.ShloMosaic.PureOps.Ideal

namespace Cert.LibLeaky

open Idealize.ShloMosaic

/-- `max z (c · z) = if 0 ≤ z then z else c · z` on the extended reals, for a real slope `0 < c ≤ 1`. -/
theorem max_mul_eq_ite {c : ℝ} (hc0 : 0 < c) (hc1 : c ≤ 1) (z : EReal) :
    max z ((c : EReal) * z) = if 0 ≤ z then z else (c : EReal) * z := by
  induction z using EReal.rec with
  | bot => rw [EReal.coe_mul_bot_of_pos hc0, if_neg (by simp), max_self]
  | top => rw [EReal.coe_mul_top_of_pos hc0, if_pos le_top, max_self]
  | coe r =>
    rw [← EReal.coe_mul]
    by_cases h : 0 ≤ r
    · rw [if_pos (by exact_mod_cast h)]
      exact max_eq_left (by exact_mod_cast (by nlinarith : c * r ≤ r))
    · rw [if_neg (by intro h'; exact h (by exact_mod_cast h'))]
      exact max_eq_right (by exact_mod_cast (by nlinarith : r ≤ c * r))

/-- A value chosen by the comparison "`z` is ordered and at least zero" is the first where `0 ≤ z`, else the second. -/
theorem select_oge_zero {α : Type} (z : EReal) (a b : α) :
    Scalar.select (Ideal.cmp .oge z 0) a b = if 0 ≤ z then a else b := by
  unfold Scalar.select Ideal.cmp
  by_cases h : (0 : EReal) ≤ z <;> simp [h]

end Cert.LibLeaky
-- ==== Proof.Spec.lean ====
/-
  The mathematics of the two-layer perceptron with a leaky rectifier, on the extended reals.

  For a row `n` of `X` the hidden unit `j` is  z = (∑ₖ X[n,k] · W1[k,j]) + b1[j]  passed through the leaky
  rectifier with slope `c`, and output `r` is  (∑ⱼ hidden[n,j] · W2[j,r]) + b2[r].  The rectifier is written in two
  ways: as  max z (c·z)  and as  "z if 0 ≤ z, else c·z".  They agree for every extended real `z`, infinite ones too,
  because `0 < c ≤ 1`:  for 0 ≤ z one has c·z ≤ z, for z < 0 one has z ≤ c·z, and c·(±∞) = ±∞.
-/
import Idealize.ShloMosaic.PureOps.Ideal
import Idealize.ShloMosaic.PureOps.Ideal.Laws
import Idealize.ShloMosaic.Lib.ValueIdx
import proofs.«142265_g89618787598748_cont_9to1c4b_779_6_alg».proof.Proof.LibLeaky

noncomputable section

namespace Cert.Mlp

open Idealize.ShloMosaic Idealize.ShloMosaic.ValueIdx

/-! ## The slope -/

/-- The rectifier's slope: the single-precision number nearest one hundredth, 10737418 · 2⁻³⁰. -/
abbrev slope : EReal := Ideal.ofBits .f32 0x3C23D70A#32

/-- Its real value. -/
def slopeR : ℝ := 10737418 * (2 : ℝ) ^ (-30 : Int)

theorem slope_coe : slope = ((slopeR : ℝ) : EReal) := by
  unfold slope slopeR
  simp [Ideal.ofBits, Ideal.ieee]

theorem slopeR_pos : 0 < slopeR := by unfold slopeR; positivity

theorem slopeR_le_one : slopeR ≤ 1 := by
  unfold slopeR
  norm_num

/-! ## The rectifier, two ways -/

/-- `max z (c·z)` is `z` where `0 ≤ z` and `c·z` elsewhere, for every extended real `z`. -/
theorem max_slope_eq_ite (z : EReal) : max z (slope * z) = if 0 ≤ z then z else slope * z := by
  rw [slope_coe]
  exact LibLeaky.max_mul_eq_ite slopeR_pos slopeR_le_one z

/-- A value chosen by the comparison "`z` is at least zero": the first where `0 ≤ z`, else the second. -/
theorem select_ge_zero (z a b : EReal) :
    Scalar.select (Ideal.cmp .oge z 0) a b = if 0 ≤ z then a else b :=
  LibLeaky.select_oge_zero z a b

/-! ## The result -/

/-- Hidden unit `j` of row `n`: the affine form through the rectifier, written with `max`. -/
def hidden (X : (⟨2, ![1000000, 16]⟩ : Shape).Idx → EReal) (W1 : (⟨2, ![16, 16]⟩ : Shape).Idx → EReal)
    (b1 : (⟨1, ![16]⟩ : Shape).Idx → EReal) (n : Fin 1000000) (j : Fin 16) : EReal :=
  max ((∑ k : Fin 16, X (ix2 n k) * W1 (ix2 k j)) + b1 (ix1 j))
    (slope * ((∑ k : Fin 16, X (ix2 n k) * W1 (ix2 k j)) + b1 (ix1 j)))

/-- Output `r` of row `n`. -/
def output (X : (⟨2, ![1000000, 16]⟩ : Shape).Idx → EReal) (W1 : (⟨2, ![16, 16]⟩ : Shape).Idx → EReal)
    (b1 : (⟨1, ![16]⟩ : Shape).Idx → EReal) (W2 : (⟨2, ![16, 2]⟩ : Shape).Idx → EReal) (b2 : (⟨1, ![2]⟩ : Shape).Idx → EReal)
    (r : Fin 2) (n : Fin 1000000) : EReal :=
  (∑ j : Fin 16, hidden X W1 b1 n j * W2 (ix2 j r)) + b2 (ix1 r)

/-- Output `r` as an array over the rows. -/
def outputs (X : (⟨2, ![1000000, 16]⟩ : Shape).Idx → EReal) (W1 : (⟨2, ![16, 16]⟩ : Shape).Idx → EReal)
    (b1 : (⟨1, ![16]⟩ : Shape).Idx → EReal) (W2 : (⟨2, ![16, 2]⟩ : Shape).Idx → EReal) (b2 : (⟨1, ![2]⟩ : Shape).Idx → EReal)
    (r : Fin 2) : (⟨1, ![1000000]⟩ : Shape).Idx → EReal :=
  fun i => output X W1 b1 W2 b2 r (i 0)

end Cert.Mlp

end
-- ==== Proof.LibPlainDot.lean ====
/-
  A plain matrix product read at coordinates. For dimension numbers that contract the left operand's columns with
  the right operand's rows and have no batch axis, a product of an `[M, K]` by a `[K, N]` matrix into a zero accumulator
  is, at the extended reals and at `(p, q)`, the sum over `k` of `l (p, k) · r (k, q)`.
-/
import Idealize.ShloMosaic.PureOps.Ideal.Laws
import Idealize.ShloMosaic.Lib.ValueIdx

noncomputable section

namespace Cert.LibPlainDot

open Idealize.ShloMosaic Idealize.ShloMosaic.ValueIdx
open scoped BigOperators

variable {M K N : Nat} (d : DotDims ⟨2, ![M, K]⟩ ⟨2, ![K, N]⟩ ⟨2, ![M, N]⟩)

/-- The left operand's row coordinate is the result's row. -/
theorem lhsIdx_row (hlb : d.lhsBatch = []) (hln : d.lhsNonContracting = [0]) (j : (⟨2, ![M, N]⟩ : Shape).Idx) (k : d.contr.Idx) :
    (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The right operand's column coordinate is the result's column. -/
theorem rhsIdx_col (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The product at `(p, q)`. -/
theorem matmul_plain_apply {φ₁ φ₂ : FTy} (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  have hr : d.contr.rank = 1 := by rw [d.rank_contr, hlc]; rfl
  have hs : d.contr.size ⟨0, by omega⟩ = K := by
    rw [d.size_contr 0 (by rw [hlc]; exact Nat.one_pos)]
    simp [hlc]
  rw [Ideal.matmul_constant_zero_apply, ← Equiv.sum_comp (contrEquiv1 d K hr hs).symm]
  refine Finset.sum_congr rfl fun k _ => ?_
  have e0 : (((contrEquiv1 d K hr hs).symm k) ⟨0, by omega⟩ : ℕ) = k.val := contrEquiv1_symm_val d K hr hs k
  have hl : d.lhsIdx (ix2 p q) ((contrEquiv1 d K hr hs).symm k) = ix2 p k := by
    refine funext fun a => Fin.ext ?_
    match a with
    | ⟨0, _⟩ => exact lhsIdx_row d hlb hln (ix2 p q) _
    | ⟨1, _⟩ => exact (d.lhsIdx_val_of_single (cl := 1) hlc (ix2 p q) _).trans e0
  have hrr : d.rhsIdx (ix2 p q) ((contrEquiv1 d K hr hs).symm k) = ix2 k q := by
    refine funext fun a => Fin.ext ?_
    match a with
    | ⟨0, _⟩ => exact (d.rhsIdx_val_of_single (cr := 0) hrc (ix2 p q) _).trans e0
    | ⟨1, _⟩ => exact rhsIdx_col d hlb hrb hln hrn (ix2 p q) _
  rw [hl, hrr]

end Cert.LibPlainDot

end
-- ==== Proof.LibLayout.lean ====
/-
  Layout operations read at explicit coordinates: the forms a reduction with kept dimensions and a block with two
  leading unit axes meet.

  A vector of `a` entries cast to a column `[a, 1]` keeps entry `i` at `(i, 0)`; a column `[a, 1]` broadcast to
  `[a, b]` repeats entry `i` along row `i`; an array `[1, 1, a, b]` cast to `[a, b]`, or back, keeps entry `(i, j)`:
  in each case the two row-major positions are the same number.
-/
import Idealize.ShloMosaic.Lib.Pipeline.Value
import Idealize.ShloMosaic.Lib.ValueIdx

namespace Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, u', i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    rw [hu, hu']
    simp only [Nat.zero_mul, Nat.zero_add])

end Idealize.ShloMosaic.ValueIdx
-- ==== Proof.Payload.lean ====
/-
  The body's two result rows read at a column, at the extended reals.

  With the slab `x0` (16 rows: the 16 features of 131072 consecutive samples, one sample per column), the first
  layer's transposed weights `x1`, its bias column `x2`, the second layer's padded transposed weights `x3` and its
  padded bias column `x4`, the value the body computes at row `r` and column `q` is

      (∑ⱼ x3[r,j] · max zⱼ (c · zⱼ)) + x4[r,0],      zⱼ = (∑ₖ x1[j,k] · x0[k,q]) + x2[j,0].

  It reads the slab at column `q` only: a column of the slab that holds no sample touches no other column's result.
  The two stored rows are rows 0 and 1 of this array.
-/
import proofs.«142265_g89618787598748_cont_9to1c4b_779_6_alg».proof.Proof.Gen.KernelIdeal.Skeleton
import proofs.«142265_g89618787598748_cont_9to1c4b_779_6_alg».proof.Proof.Spec
import proofs.«142265_g89618787598748_cont_9to1c4b_779_6_alg».proof.Proof.LibPlainDot
import proofs.«142265_g89618787598748_cont_9to1c4b_779_6_alg».proof.Proof.LibLayout
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Cert.Mlp
open Idealize.ShloMosaic Idealize.ShloMosaic.ValueIdx
open scoped BigOperators

/-- The hidden unit `j` of column `q` before the rectifier, from the staged blocks. -/
def pre (x0 : S16x131072.Idx → EReal) (x1 : S16x16.Idx → EReal) (x2 : S16x1.Idx → EReal) (j : Fin 16) (q : Fin 131072) : EReal :=
  (∑ k : Fin 16, x1 (ix2 j k) * x0 (ix2 k q)) + x2 (ix2 j (0 : Fin 1))

/-- Row `r` of the second layer at column `q`, from the staged blocks. -/
def row (x0 : S16x131072.Idx → EReal) (x1 : S16x16.Idx → EReal) (x2 : S16x1.Idx → EReal) (x3 : S8x16.Idx → EReal)
    (x4 : S8x1.Idx → EReal) (r : Fin 8) (q : Fin 131072) : EReal :=
  (∑ j : Fin 16, x3 (ix2 r j) * max (pre x0 x1 x2 j q) (slope * pre x0 x1 x2 j q)) + x4 (ix2 r (0 : Fin 1))

/-- The first layer before the rectifier at `(j, q)`: the product's entry plus the bias column's. -/
theorem pre_apply (x0 : FVec Ideal S16x131072 .f32) (x1 : FVec Ideal S16x16 .f32) (x2 : FVec Ideal S16x1 .f32) (j : Fin 16) (q : Fin 131072) :
    addf (matmul dot_S16x16_S16x131072_S16x131072_1_0_0_1_n_n none x1 x0 (constant (F := Ideal) S16x131072 .f32 0x00000000#32))
      (broadcastTo S16x131072 x2 broadcasts_S16x1_S16x131072) (ix2 j q) = pre x0 x1 x2 j q :=
  congrArg₂ (· + ·)
    (LibPlainDot.matmul_plain_apply (M := 16) (K := 16) (N := 131072) dot_S16x16_S16x131072_S16x131072_1_0_0_1_n_n
      rfl rfl rfl rfl rfl rfl none x1 x0 j q)
    (broadcastTo_a1_ab_apply (a := 16) (b := 131072) x2 broadcasts_S16x1_S16x131072 j q)

/-- The body's 8 x 131072 array at `(r, q)`. -/
theorem pay1_apply (x0 : Vec Ideal S16x131072 .f32) (x1 : Vec Ideal S16x16 .f32) (x2 : Vec Ideal S16x1 .f32)
    (x3 : Vec Ideal S8x16 .f32) (x4 : Vec Ideal S8x1 .f32) (r : Fin 8) (q : Fin 131072) :
    k0_pay1 (F := Ideal) x0 x1 x2 x3 x4 (ix2 r q) = row x0 x1 x2 x3 x4 r q := by
  unfold k0_pay1 row
  simp only [shapeCast_self]
  refine congrArg₂ (· + ·) ((LibPlainDot.matmul_plain_apply (M := 8) (K := 16) (N := 131072) dot_S8x16_S16x131072_S8x131072_1_0_0_1_n_n
      rfl rfl rfl rfl rfl rfl none x3 _ r q).trans (Finset.sum_congr rfl fun j _ => congrArg (x3 (ix2 r j) * ·) ?_))
    (broadcastTo_a1_ab_apply (a := 8) (b := 131072) x4 broadcasts_S8x1_S8x131072 r q)
  -- the rectifier is pointwise: max of the entry and the slope times the entry
  exact congrArg (fun z => max z (slope * z)) (pre_apply x0 x1 x2 j q)

/-- The first stored row at column `q`: row 0 of the array. -/
theorem pay2_apply (x0 : Vec Ideal S16x131072 .f32) (x1 : Vec Ideal S16x16 .f32) (x2 : Vec Ideal S16x1 .f32)
    (x3 : Vec Ideal S8x16 .f32) (x4 : Vec Ideal S8x1 .f32) (q : Fin 131072) :
    k0_pay2 (F := Ideal) x0 x1 x2 x3 x4 (ix1 q) = row x0 x1 x2 x3 x4 0 q := by
  unfold k0_pay2
  exact (shapeCast_apply _ shapeCasts_S1x131072_S131072 (ix1 q) (ix2 (0 : Fin 1) q)
      (by rewrite [Shape.rowMajor_val_two, Shape.rowMajor_val_one]; show 0 * 131072 + q.val = q.val; omega)).trans
    ((extractStridedSlice_apply ![0, 0] _ slices_S8x131072_o0_0_S1x131072 (ix2 (0 : Fin 1) q) (ix2 (0 : Fin 8) q)
      (fun a => match a with
        | ⟨0, _⟩ => rfl
        | ⟨1, _⟩ => by show q.val = 0 + q.val; omega)).trans (pay1_apply x0 x1 x2 x3 x4 0 q))

/-- The second stored row at column `q`: row 1 of the array. -/
theorem pay3_apply (x0 : Vec Ideal S16x131072 .f32) (x1 : Vec Ideal S16x16 .f32) (x2 : Vec Ideal S16x1 .f32)
    (x3 : Vec Ideal S8x16 .f32) (x4 : Vec Ideal S8x1 .f32) (q : Fin 131072) :
    k0_pay3 (F := Ideal) x0 x1 x2 x3 x4 (ix1 q) = row x0 x1 x2 x3 x4 1 q := by
  unfold k0_pay3
  exact (shapeCast_apply _ shapeCasts_S1x131072_S131072 (ix1 q) (ix2 (0 : Fin 1) q)
      (by rewrite [Shape.rowMajor_val_two, Shape.rowMajor_val_one]; show 0 * 131072 + q.val = q.val; omega)).trans
    ((extractStridedSlice_apply ![1, 0] _ slices_S8x131072_o1_0_S1x131072 (ix2 (0 : Fin 1) q) (ix2 (1 : Fin 8) q)
      (fun a => match a with
        | ⟨0, _⟩ => rfl
        | ⟨1, _⟩ => by show q.val = 0 + q.val; omega)).trans (pay1_apply x0 x1 x2 x3 x4 1 q))

/-- A row at column `q` reads the slab at column `q` only. -/
theorem row_congr (x0 x0' : S16x131072.Idx → EReal) (x1 : S16x16.Idx → EReal) (x2 : S16x1.Idx → EReal) (x3 : S8x16.Idx → EReal)
    (x4 : S8x1.Idx → EReal) (r : Fin 8) (q : Fin 131072) (h : ∀ k : Fin 16, x0 (ix2 k q) = x0' (ix2 k q)) :
    row x0 x1 x2 x3 x4 r q = row x0' x1 x2 x3 x4 r q := by
  unfold row pre
  simp only [h]

/-- A row above the padding, over blocks that hold sample `n`'s features in column `q` and the transposed weights
    and bias columns, is the perceptron's output for that sample: the products commute. -/
theorem row_eq_output (X : (⟨2, ![1000000, 16]⟩ : Shape).Idx → EReal) (W1 : (⟨2, ![16, 16]⟩ : Shape).Idx → EReal)
    (b1 : (⟨1, ![16]⟩ : Shape).Idx → EReal) (W2 : (⟨2, ![16, 2]⟩ : Shape).Idx → EReal) (b2 : (⟨1, ![2]⟩ : Shape).Idx → EReal)
    (x0 : S16x131072.Idx → EReal) (x1 : S16x16.Idx → EReal) (x2 : S16x1.Idx → EReal) (x3 : S8x16.Idx → EReal)
    (x4 : S8x1.Idx → EReal) (r : Fin 2) (q : Fin 131072) (n : Fin 1000000)
    (h0 : ∀ k : Fin 16, x0 (ix2 k q) = X (ix2 n k)) (h1 : ∀ j k : Fin 16, x1 (ix2 j k) = W1 (ix2 k j))
    (h2 : ∀ j : Fin 16, x2 (ix2 j (0 : Fin 1)) = b1 (ix1 j))
    (h3 : ∀ j : Fin 16, x3 (ix2 (Fin.castLE (by decide : 2 ≤ 8) r) j) = W2 (ix2 j r))
    (h4 : x4 (ix2 (Fin.castLE (by decide : 2 ≤ 8) r) (0 : Fin 1)) = b2 (ix1 r)) :
    row x0 x1 x2 x3 x4 (Fin.castLE (by decide : 2 ≤ 8) r) q = Mlp.output X W1 b1 W2 b2 r n := by
  unfold row pre Mlp.output Mlp.hidden
  simp only [h0, h1, h2, h3, h4]
  refine congrArg (· + b2 (ix1 r)) (Finset.sum_congr rfl fun j _ => ?_)
  rw [mul_comm]
  have e : (∑ k : Fin 16, W1 (ix2 k j) * X (ix2 n k)) = ∑ k : Fin 16, X (ix2 n k) * W1 (ix2 k j) :=
    Finset.sum_congr rfl fun k _ => mul_comm _ _
  rw [e]

end Cert.KernelIdeal.Payload

end
-- ==== Proof.Data.lean ====
/-
  The run of the idealized program with every staging buffer's contents named.

  At grid point `t` the slab holds columns 131072·t … of the transposed samples; at the last point only the first
  82496 of its columns hold samples, and the fetch leaves the rest at contents nothing names. The body computes
  each output column from the same column of the slab, and the write-back moves only the columns that hold
  samples; so the part of each output buffer that is written back does not depend on the slab's tail. The proof
  data name the slab with zeros in the tail and the outputs as the body's two rows of THAT slab: on the moved
  columns this is what the body leaves, whatever the tail held.
-/
import proofs.«142265_g89618787598748_cont_9to1c4b_779_6_alg».proof.Proof.Body
import proofs.«142265_g89618787598748_cont_9to1c4b_779_6_alg».proof.Proof.Payload
import proofs.«142265_g89618787598748_cont_9to1c4b_779_6_alg».proof.Proof.Gen.KernelIdeal.Frame
import Idealize.ShloMosaic.Lib.Pipeline.Frame

set_option maxRecDepth 16384

noncomputable section

namespace Cert.KernelIdeal.Data

open Cert.KernelIdeal Cert.KernelIdeal.Gen Cert.KernelIdeal.Body Cert.KernelIdeal.Payload

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

local notation "𝕄" => MT nD τ sig Unit (Elt Ideal) ℕ (UR sig nD τ) ℕ

/-! ## How the three cut windows are cut -/

/-- At every point the slab keeps all 16 rows, and it is cut to as many columns as each output row is cut to
    entries. -/
theorem cuts : ∀ t : Fin grid0.N, win0_0.xsize (grid0.coords t) 0 = 16
      ∧ win0_0.xsize (grid0.coords t) 1 = win0_5.xsize (grid0.coords t) 0
      ∧ win0_6.xsize (grid0.coords t) 0 = win0_5.xsize (grid0.coords t) 0 := by
  decide +kernel

/-- A column of the slab that the fetch fills holds the fetched block there, whatever the buffer held before. -/
theorem fill_col (t : Fin grid0.N) (d d' : S16x131072.Idx → EReal) (g : (win0_0.xblock (grid0.coords t)).Idx → EReal)
    (k : Fin 16) (q : Fin 131072) (hq : q.val < win0_5.xsize (grid0.coords t) 0) :
    win0_0.fill (grid0.coords t) d g (ix2 k q) = win0_0.fill (grid0.coords t) d' g (ix2 k q) := by
  have hm : win0_0.moved (grid0.coords t) (ix2 k q) = true := (win0_0.moved_iff _ _).mpr fun a => by
    match a with
    | ⟨0, _⟩ => show k.val < win0_0.xsize (grid0.coords t) 0; rw [(cuts t).1]; exact k.isLt
    | ⟨1, _⟩ => show q.val < win0_0.xsize (grid0.coords t) 1; rw [(cuts t).2.1]; exact hq
  unfold Pipeline.Window.fill; rw [dif_pos hm, dif_pos hm]

/-- The written-back part of the first output row does not depend on the slab's tail. -/
theorem cut_pay2 (t : Fin grid0.N) (d d' : S16x131072.Idx → EReal) (g : (win0_0.xblock (grid0.coords t)).Idx → EReal)
    (x1 : S16x16.Idx → EReal) (x2 : S16x1.Idx → EReal) (x3 : S8x16.Idx → EReal) (x4 : S8x1.Idx → EReal) :
    win0_5.cut (grid0.coords t) (k0_pay2 (F := Ideal) (win0_0.fill (grid0.coords t) d g) x1 x2 x3 x4)
      = win0_5.cut (grid0.coords t) (k0_pay2 (F := Ideal) (win0_0.fill (grid0.coords t) d' g) x1 x2 x3 x4) := by
  funext y
  have hq : (y 0).val < win0_5.xsize (grid0.coords t) 0 := (y 0).isLt
  have hq' : (y 0).val < 131072 := lt_of_lt_of_le hq (win0_5.xsize_le _ 0)
  have e : win0_5.xinj (grid0.coords t) y = ix1 (⟨(y 0).val, hq'⟩ : Fin 131072) :=
    funext fun a => match a with | ⟨0, _⟩ => rfl
  show k0_pay2 (F := Ideal) _ x1 x2 x3 x4 (win0_5.xinj (grid0.coords t) y) = k0_pay2 (F := Ideal) _ x1 x2 x3 x4 (win0_5.xinj (grid0.coords t) y)
  rw [e, pay2_apply, pay2_apply]
  exact row_congr _ _ _ _ _ _ _ _ (fun k => fill_col t d d' g k _ hq)

/-- The written-back part of the second output row does not depend on the slab's tail. -/
theorem cut_pay3 (t : Fin grid0.N) (d d' : S16x131072.Idx → EReal) (g : (win0_0.xblock (grid0.coords t)).Idx → EReal)
    (x1 : S16x16.Idx → EReal) (x2 : S16x1.Idx → EReal) (x3 : S8x16.Idx → EReal) (x4 : S8x1.Idx → EReal) :
    win0_6.cut (grid0.coords t) (k0_pay3 (F := Ideal) (win0_0.fill (grid0.coords t) d g) x1 x2 x3 x4)
      = win0_6.cut (grid0.coords t) (k0_pay3 (F := Ideal) (win0_0.fill (grid0.coords t) d' g) x1 x2 x3 x4) := by
  funext y
  have hq : (y 0).val < win0_5.xsize (grid0.coords t) 0 := by rw [← (cuts t).2.2]; exact (y 0).isLt
  have hq' : (y 0).val < 131072 := lt_of_lt_of_le hq (win0_5.xsize_le _ 0)
  have e : win0_6.xinj (grid0.coords t) y = ix1 (⟨(y 0).val, hq'⟩ : Fin 131072) :=
    funext fun a => match a with | ⟨0, _⟩ => rfl
  show k0_pay3 (F := Ideal) _ x1 x2 x3 x4 (win0_6.xinj (grid0.coords t) y) = k0_pay3 (F := Ideal) _ x1 x2 x3 x4 (win0_6.xinj (grid0.coords t) y)
  rw [e, pay3_apply, pay3_apply]
  exact row_congr _ _ _ _ _ _ _ _ (fun k => fill_col t d d' g k _ hq)

/-! ## The proof data -/

variable (m : (ℓ : Loc nD τ sig) → Buf (Elt Ideal) ℓ) (ρ : Dev nD → PrngReg)

/-- The slab at point `t`: the block of the transposed samples inside the array, zero in the columns past its end. -/
def slab (c : Dev nD) (t : Fin cfg0.N) : S16x131072.Idx → EReal :=
  win0_0.fill (grid0.coords t) (fun _ => 0) (iblk m c 0 t)

/-- The proof data on device `c`: the arrays as the region finds them; after the body the slab, the four small
    inputs at their blocks, and the two output rows of those. -/
def dats (_ : Fin 1) (c : Dev nD) : Dat τ (Elt Ideal) Unit ℕ (UR sig nD τ) ℕ cfg0 c where
  A w := V m c (Pipeline.arrRef spec0 w)
  after w t := match w with
    | ⟨0, _⟩ => slab m c t
    | ⟨1, _⟩ => iblk m c 1 t
    | ⟨2, _⟩ => iblk m c 2 t
    | ⟨3, _⟩ => iblk m c 3 t
    | ⟨4, _⟩ => iblk m c 4 t
    | ⟨5, _⟩ => k0_pay2 (F := Ideal) (slab m c t) (iblk m c 1 t) (iblk m c 2 t) (iblk m c 3 t) (iblk m c 4 t)
    | ⟨6, _⟩ => k0_pay3 (F := Ideal) (slab m c t) (iblk m c 1 t) (iblk m c 2 t) (iblk m c 3 t) (iblk m c 4 t)
  Φ _ := Pipeline.ΦA spec0 c
  q _ := fullShare
  owed _ := 0

/-! ## What the body finds -/

/-- The slab just fetched: the block inside the array, `d` past its end. -/
theorem before_0 (c : Dev nD) (t : Fin cfg0.N) (d) :
    (dats m 0 c).before (0 : Fin 7) t d = win0_0.fill (grid0.coords t) d (iblk m c 0 t) := by
  unfold Dat.before; rw [if_pos (fetch0_0 t)]; rfl

theorem before_1 (c : Dev nD) (t : Fin cfg0.N) (d) : (dats m 0 c).before (1 : Fin 7) t d = iblk m c 1 t :=
  before0_1_of m (dats m 0 c) rfl (fun _ => rfl) t d
theorem before_2 (c : Dev nD) (t : Fin cfg0.N) (d) : (dats m 0 c).before (2 : Fin 7) t d = iblk m c 2 t :=
  before0_2_of m (dats m 0 c) rfl (fun _ => rfl) t d
theorem before_3 (c : Dev nD) (t : Fin cfg0.N) (d) : (dats m 0 c).before (3 : Fin 7) t d = iblk m c 3 t :=
  before0_3_of m (dats m 0 c) rfl (fun _ => rfl) t d
theorem before_4 (c : Dev nD) (t : Fin cfg0.N) (d) : (dats m 0 c).before (4 : Fin 7) t d = iblk m c 4 t :=
  before0_4_of m (dats m 0 c) rfl (fun _ => rfl) t d

/-- An output row's buffer is fresh at every point: the point before wrote it back. -/
theorem before_5 (c : Dev nD) (t : Fin cfg0.N) (d) : (dats m 0 c).before (5 : Fin 7) t d = d :=
  (dats m 0 c).before_out_reset (5 : Fin 7) rfl t
    (if h : t.val = 0 then .inl h else .inr ⟨h, flush0_5 _⟩) d
theorem before_6 (c : Dev nD) (t : Fin cfg0.N) (d) : (dats m 0 c).before (6 : Fin 7) t d = d :=
  (dats m 0 c).before_out_reset (6 : Fin 7) rfl t
    (if h : t.val = 0 then .inl h else .inr ⟨h, flush0_6 _⟩) d

/-! ## The body obligation -/

/-- At every point the body runs from the buffers as found — the slab fetched over any tail `d0`, the four small
    inputs at their blocks, the output rows at anything — and leaves them as the proof data say on the part each
    cut window's transfers move: the slab's moved part is its block, and the moved part of each output row is
    that row of the zero-tailed slab, the tail not being read there. -/
theorem body_obligation (c : Dev nD) : BodyObligationLoose (dats m 0 c) (defs₀ (F := Ideal)) 𝒱₀ () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  rw [before_0 m c t d0, before_1 m c t d1, before_2 m c t d2, before_3 m c t d3, before_4 m c t d4,
    before_5 m c t d5, before_6 m c t d6]
  iapply (sound_body (F := Ideal) c Set.univ (grid0.coords t) (cfg0.slots t 0) (cfg0.slots t 1) (cfg0.slots t 2)
    (cfg0.slots t 3) (cfg0.slots t 4) (cfg0.slots t 5) (cfg0.slots t 6)
    (win0_0.fill (grid0.coords t) d0 (iblk m c 0 t)) (iblk m c 1 t) (iblk m c 2 t) (iblk m c 3 t) (iblk m c 4 t) d5 d6 _)
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  iintro ⟨H0, H1, H2, H3, H4, H5, H6⟩
  isplitl [HΦ]; · iexact HΦ
  isplitl [Ho]; · iexact Ho
  have h0 : win0_0.cut (grid0.coords t) (slab m c t) = iblk m c 0 t := win0_0.cut_fill _ _ _
  have h5 : win0_5.fill (grid0.coords t)
        (k0_pay2 (F := Ideal) (win0_0.fill (grid0.coords t) d0 (iblk m c 0 t)) (iblk m c 1 t) (iblk m c 2 t) (iblk m c 3 t) (iblk m c 4 t))
        (win0_5.cut (grid0.coords t) (k0_pay2 (F := Ideal) (slab m c t) (iblk m c 1 t) (iblk m c 2 t) (iblk m c 3 t) (iblk m c 4 t)))
      = k0_pay2 (F := Ideal) (win0_0.fill (grid0.coords t) d0 (iblk m c 0 t)) (iblk m c 1 t) (iblk m c 2 t) (iblk m c 3 t) (iblk m c 4 t) :=
    win0_5.fill_congr_cut _ (cut_pay2 t d0 (fun _ => 0) (iblk m c 0 t) _ _ _ _)
  have h6 : win0_6.fill (grid0.coords t)
        (k0_pay3 (F := Ideal) (win0_0.fill (grid0.coords t) d0 (iblk m c 0 t)) (iblk m c 1 t) (iblk m c 2 t) (iblk m c 3 t) (iblk m c 4 t))
        (win0_6.cut (grid0.coords t) (k0_pay3 (F := Ideal) (slab m c t) (iblk m c 1 t) (iblk m c 2 t) (iblk m c 3 t) (iblk m c 4 t)))
      = k0_pay3 (F := Ideal) (win0_0.fill (grid0.coords t) d0 (iblk m c 0 t)) (iblk m c 1 t) (iblk m c 2 t) (iblk m c 3 t) (iblk m c 4 t) :=
    win0_6.fill_congr_cut _ (cut_pay3 t d0 (fun _ => 0) (iblk m c 0 t) _ _ _ _)
  isplitl [H0]
  · iexists d0
    change _ ⊢ owns (c : Thread nD τ) (stage0_0 (cfg0.slots t 0)) fullShare
      (win0_0.fill (grid0.coords t) d0 (win0_0.cut (grid0.coords t) (slab m c t)))
    rw [h0]; try iexact H0
  isplitl [H1]; · iexact H1
  isplitl [H2]; · iexact H2
  isplitl [H3]; · iexact H3
  isplitl [H4]; · iexact H4
  isplitl [H5]
  · iexists k0_pay2 (F := Ideal) (win0_0.fill (grid0.coords t) d0 (iblk m c 0 t)) (iblk m c 1 t) (iblk m c 2 t) (iblk m c 3 t) (iblk m c 4 t)
    change _ ⊢ owns (Val := Elt Ideal) (c : Thread nD τ) (stage0_5 (cfg0.slots t 5)) fullShare
      ((win0_5.fill (α := EReal) (grid0.coords t)
        (k0_pay2 (F := Ideal) (win0_0.fill (grid0.coords t) d0 (iblk m c 0 t)) (iblk m c 1 t) (iblk m c 2 t) (iblk m c 3 t) (iblk m c 4 t))
        (win0_5.cut (α := EReal) (grid0.coords t) (k0_pay2 (F := Ideal) (slab m c t) (iblk m c 1 t) (iblk m c 2 t) (iblk m c 3 t) (iblk m c 4 t)))) :
        S131072.Idx → Elt Ideal .f32)
    rw [h5]; try iexact H5
  · iexists k0_pay3 (F := Ideal) (win0_0.fill (grid0.coords t) d0 (iblk m c 0 t)) (iblk m c 1 t) (iblk m c 2 t) (iblk m c 3 t) (iblk m c 4 t)
    change _ ⊢ owns (Val := Elt Ideal) (c : Thread nD τ) (stage0_6 (cfg0.slots t 6)) fullShare
      ((win0_6.fill (α := EReal) (grid0.coords t)
        (k0_pay3 (F := Ideal) (win0_0.fill (grid0.coords t) d0 (iblk m c 0 t)) (iblk m c 1 t) (iblk m c 2 t) (iblk m c 3 t) (iblk m c 4 t))
        (win0_6.cut (α := EReal) (grid0.coords t) (k0_pay3 (F := Ideal) (slab m c t) (iblk m c 1 t) (iblk m c 2 t) (iblk m c 3 t) (iblk m c 4 t)))) :
        S131072.Idx → Elt Ideal .f32)
    rw [h6]; try iexact H6

/-! ## The run -/

/-- Every weakly fair execution of @main terminates, faulting nowhere; every staged array ends at what the library
    computes from the proof data and every other unscoped buffer as the region found it. -/
theorem run_main : θ_run defs (onTc (τ := τ) (main (F := Ideal))) (s₀ m ρ) (Pipeline.FramePost cfgs (dats m) 0 (V m)) :=
  Pipeline.θ_run_frame cfgs (dats m) 0 launch0 defs₀ 𝒱₀ m ρ main
    (hbody := body_obligation m)
    (hshare := fun c => (dats m 0 c).share_full fun _ => rfl) (howed := fun _ _ => rfl)
    (V := V m) (hmain := hmain m 𝒱₀) (hA := fun _ _ => rfl) (hΦ := fun _ _ => rfl)

end Cert.KernelIdeal.Data

end
-- ==== Proof.HostIn.lean ====
/-
  What the region finds in the five arrays the pipeline stages, read at coordinates.

  Before the launch the host lays the arguments out for the body: the sample matrix and the first layer's weights
  transposed, the first bias as a column, the second layer's weights transposed and padded below with six rows of
  zeros, the second bias padded with six zeros and made a column. So, with `X, W1, b1, W2, b2` the launch arrays,
  the staged arrays read  X[n,k]  at (k,n),  W1[k,j]  at (j,k),  b1[j]  at (j,0),  W2[j,r]  at (r,j) for r < 2,
  and  b2[r]  at (r,0) for r < 2.
-/
import proofs.«142265_g89618787598748_cont_9to1c4b_779_6_alg».proof.Proof.Gen.KernelIdeal.Frame
import proofs.«142265_g89618787598748_cont_9to1c4b_779_6_alg».proof.Proof.LibLayout
import Idealize.ShloMosaic.Lib.Pipeline.Value
import Idealize.ShloMosaic.Lib.ValueIdx
import Idealize.ShloMosaic.Lib.StableHlo.Run

set_option maxRecDepth 16384

noncomputable section

namespace Cert.KernelIdeal.HostIn

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (c : Dev nD)

/-! ## The staged arrays as the host operations' terms -/

theorem V_v0 : (V m c main_call0_v0 : S16x1000000.Idx → EReal)
    = transpose S16x1000000 [1, 0] (m ((c : Thread nD τ).loc main_arg0)) transposes_S1000000x16_S16x1000000_1_0 := by
  dsimp only [V, hostOps0]; after_results; rfl

theorem V_v1 : (V m c main_call0_v1 : S16x16.Idx → EReal)
    = transpose S16x16 [1, 0] (m ((c : Thread nD τ).loc main_arg1)) transposes_S16x16_S16x16_1_0 := by
  dsimp only [V, hostOps0]; after_results; rfl

theorem V_v2 : (V m c main_call0_v2 : S16x1.Idx → EReal) = shapeCast S16x1 (m ((c : Thread nD τ).loc main_arg2)) shapeCasts_S16_S16x1 := by
  dsimp only [V, hostOps0]; after_results; rfl

theorem V_v5 : (V m c main_call0_v5 : S8x16.Idx → EReal)
    = concatenate S8x16 0 [⟨S2x16, transpose S2x16 [1, 0] (m ((c : Thread nD τ).loc main_arg3)) transposes_S16x2_S2x16_1_0⟩,
        ⟨S6x16, broadcastInDim S6x16 ![] bcast_S_S6x16 (constant (F := Ideal) S_ .f32 0x00000000#32)⟩]
        concatenates_S2x16_S6x16_S8x16_d0 := by
  dsimp only [V, hostOps0]; after_results; rfl

theorem V_v8 : (V m c main_call0_v8 : S8x1.Idx → EReal)
    = shapeCast S8x1 (concatenate S8 0 [⟨S2, (m ((c : Thread nD τ).loc main_arg4))⟩,
        ⟨S6, broadcastInDim S6 ![] bcast_S_S6 (constant (F := Ideal) S_ .f32 0x00000000#32)⟩] concatenates_S2_S6_S8_d0)
        shapeCasts_S8_S8x1 := by
  dsimp only [V, hostOps0]; after_results; rfl

/-! ## Read at coordinates -/

/-- The transposed samples: feature `k` of sample `n`. -/
theorem v0_at (k : Fin 16) (n : Fin 1000000) :
    (V m c main_call0_v0 : S16x1000000.Idx → EReal) (ix2 k n) = (m ((c : Thread nD τ).loc main_arg0)) (ix2 n k) :=
  (congrFun (V_v0 m c) (ix2 k n)).trans (transpose_apply [1, 0] _ _ (ix2 k n) (ix2 n k)
    (fun b => match b with | ⟨0, _⟩ => rfl | ⟨1, _⟩ => rfl))

/-- The transposed first-layer weights. -/
theorem v1_at (j k : Fin 16) : (V m c main_call0_v1 : S16x16.Idx → EReal) (ix2 j k) = (m ((c : Thread nD τ).loc main_arg1)) (ix2 k j) :=
  (congrFun (V_v1 m c) (ix2 j k)).trans (transpose_apply [1, 0] _ _ (ix2 j k) (ix2 k j)
    (fun b => match b with | ⟨0, _⟩ => rfl | ⟨1, _⟩ => rfl))

/-- The first bias as a column. -/
theorem v2_at (j : Fin 16) : (V m c main_call0_v2 : S16x1.Idx → EReal) (ix2 j (0 : Fin 1)) = (m ((c : Thread nD τ).loc main_arg2)) (ix1 j) :=
  (congrFun (V_v2 m c) (ix2 j (0 : Fin 1))).trans (shapeCast_a_a1_apply (a := 16) _ _ j 0)

/-- The transposed second-layer weights, in the two rows above the padding. -/
theorem v5_at (r : Fin 2) (j : Fin 16) :
    (V m c main_call0_v5 : S8x16.Idx → EReal) (ix2 (Fin.castLE (by decide : 2 ≤ 8) r) j) = (m ((c : Thread nD τ).loc main_arg3)) (ix2 j r) :=
  (congrFun (V_v5 m c) (ix2 (Fin.castLE (by decide : 2 ≤ 8) r) j)).trans
    ((concatenate_pair_apply_left (t := S8x16) (s₁ := S2x16) (s₂ := S6x16) (0 : Fin 2) _ _ concatenates_S2x16_S6x16_S8x16_d0 (ix2 (Fin.castLE (by decide : 2 ≤ 8) r) j) rfl (ix2 r j)
      (fun b => match b with | ⟨0, _⟩ => rfl | ⟨1, _⟩ => rfl)).trans
      (transpose_apply [1, 0] _ _ (ix2 r j) (ix2 j r) (fun b => match b with | ⟨0, _⟩ => rfl | ⟨1, _⟩ => rfl)))

/-- The second bias as a column, in the two rows above the padding. -/
theorem v8_at (r : Fin 2) :
    (V m c main_call0_v8 : S8x1.Idx → EReal) (ix2 (Fin.castLE (by decide : 2 ≤ 8) r) (0 : Fin 1)) = (m ((c : Thread nD τ).loc main_arg4)) (ix1 r) :=
  (congrFun (V_v8 m c) (ix2 (Fin.castLE (by decide : 2 ≤ 8) r) (0 : Fin 1))).trans
    ((shapeCast_a_a1_apply (a := 8) _ _ (Fin.castLE (by decide : 2 ≤ 8) r) 0).trans
      (concatenate_pair_apply_left (t := S8) (s₁ := S2) (s₂ := S6) (0 : Fin 1) _ _ concatenates_S2_S6_S8_d0 (ix1 (Fin.castLE (by decide : 2 ≤ 8) r)) rfl (ix1 r)
        (fun b => match b with | ⟨0, _⟩ => rfl)))

end Cert.KernelIdeal.HostIn

end
-- ==== Proof.Final.lean ====
/-
  What the two result arrays hold after the run.

  Point `t` writes back entries 131072·t … of each result, as many as lie inside the array (131072 at the first
  seven points, 82496 at the last). The entry it writes at position `y` is the body's row (0 or 1) at column `y`
  of the slab, and column `y` of the slab holds the sixteen features of sample  n = 131072·t + y;  with the weights
  and biases staged transposed and padded, that row is the perceptron's output for sample `n`. The eight blocks cover
  the array (sample `n` lies in block `n / 131072`), so each result array ends holding its output of every sample.
-/
import proofs.«142265_g89618787598748_cont_9to1c4b_779_6_alg».proof.Proof.Data
import proofs.«142265_g89618787598748_cont_9to1c4b_779_6_alg».proof.Proof.HostIn
import Idealize.ShloMosaic.Lib.Pipeline.Value

set_option maxRecDepth 16384

noncomputable section

namespace Cert.KernelIdeal.Final

open Cert.KernelIdeal Cert.KernelIdeal.Gen Cert.KernelIdeal.Payload Cert.KernelIdeal.Data Cert.KernelIdeal.HostIn
open Idealize.ShloMosaic Idealize.ShloMosaic.ValueIdx Idealize.ShloMosaic.TcCoe Idealize.SL.Sem
open Idealize.ShloMosaic.Pipeline (Dat Cfg Window)

variable (m : (ℓ : Loc nD τ sig) → Buf (Elt Ideal) ℓ) (c : Dev nD)

/-! ## Where the blocks sit -/

/-- The slab's block index is 0 on the rows and the results' block index on the columns; the small windows' blocks
    are their whole arrays; the two results are blocked alike. -/
theorem idx_facts : ∀ t : Fin grid0.N, win0_0.index t 0 = 0 ∧ win0_0.index t 1 = win0_5.index t 0
      ∧ win0_6.index t 0 = win0_5.index t 0
      ∧ win0_1.index t 0 = 0 ∧ win0_1.index t 1 = 0 ∧ win0_2.index t 0 = 0 ∧ win0_2.index t 1 = 0
      ∧ win0_3.index t 0 = 0 ∧ win0_3.index t 1 = 0 ∧ win0_4.index t 0 = 0 ∧ win0_4.index t 1 = 0 := by
  decide +kernel

/-- Block `t` of a result starts at entry 131072·t and has the entries up to the array's end, at most 131072. -/
theorem geom : ∀ t : Fin grid0.N, win0_5.index t 0 = t.val
      ∧ win0_5.xsize (grid0.coords t) 0 = min 131072 (1000000 - t.val * 131072)
      ∧ win0_6.index t 0 = t.val
      ∧ win0_6.xsize (grid0.coords t) 0 = min 131072 (1000000 - t.val * 131072) := by
  decide +kernel

/-! ## The input blocks read at coordinates -/

/-- Column `q` of the slab's block at point `t` holds the features of the sample at that column's position. -/
theorem blk0_at (t : Fin cfg0.N) (y : (win0_0.xblock (grid0.coords t)).Idx) (k : Fin 16) (n : Fin 1000000)
    (hk : (y 0).val = k.val) (hn : t.val * 131072 + (y 1).val = n.val) :
    iblk m c 0 t y = m ((c : Thread nD τ).loc main_arg0) (ix2 n k) := by
  refine Eq.trans ?_ (v0_at m c k n)
  show (V m c main_call0_v0 : S16x1000000.Idx → EReal) ((win0_0.rect t).emb y) = _
  refine congrArg _ (funext fun a => Fin.ext ?_)
  match a with
  | ⟨0, _⟩ =>
    refine (win0_0.rect_emb_val t y 0).trans ?_
    rw [(idx_facts t).1]; show 0 * 16 + (y 0).val = k.val; omega
  | ⟨1, _⟩ =>
    refine (win0_0.rect_emb_val t y 1).trans ?_
    rw [(idx_facts t).2.1, (geom t).1]; show t.val * 131072 + (y 1).val = n.val; exact hn

theorem blk1_at (t : Fin cfg0.N) (j k : Fin 16) :
    iblk m c 1 t (ix2 j k) = m ((c : Thread nD τ).loc main_arg1) (ix2 k j) := by
  refine Eq.trans ?_ (v1_at m c j k)
  show (V m c main_call0_v1 : S16x16.Idx → EReal) ((win0_1.rect t).emb (ix2 j k)) = _
  refine congrArg _ (funext fun a => Fin.ext ?_)
  match a with
  | ⟨0, _⟩ => refine (win0_1.rect_emb_val t (ix2 j k) 0).trans ?_; rw [(idx_facts t).2.2.2.1]; show 0 * 16 + j.val = j.val; omega
  | ⟨1, _⟩ => refine (win0_1.rect_emb_val t (ix2 j k) 1).trans ?_; rw [(idx_facts t).2.2.2.2.1]; show 0 * 16 + k.val = k.val; omega

theorem blk2_at (t : Fin cfg0.N) (j : Fin 16) :
    iblk m c 2 t (ix2 j (0 : Fin 1)) = m ((c : Thread nD τ).loc main_arg2) (ix1 j) := by
  refine Eq.trans ?_ (v2_at m c j)
  show (V m c main_call0_v2 : S16x1.Idx → EReal) ((win0_2.rect t).emb (ix2 j (0 : Fin 1))) = _
  refine congrArg _ (funext fun a => Fin.ext ?_)
  match a with
  | ⟨0, _⟩ => refine (win0_2.rect_emb_val t (ix2 j (0 : Fin 1)) 0).trans ?_; rw [(idx_facts t).2.2.2.2.2.1]; show 0 * 16 + j.val = j.val; omega
  | ⟨1, _⟩ => refine (win0_2.rect_emb_val t (ix2 j (0 : Fin 1)) 1).trans ?_; rw [(idx_facts t).2.2.2.2.2.2.1]; show 0 * 1 + 0 = 0; omega

theorem blk3_at (t : Fin cfg0.N) (r : Fin 2) (j : Fin 16) :
    iblk m c 3 t (ix2 (Fin.castLE (by decide : 2 ≤ 8) r) j) = m ((c : Thread nD τ).loc main_arg3) (ix2 j r) := by
  refine Eq.trans ?_ (v5_at m c r j)
  show (V m c main_call0_v5 : S8x16.Idx → EReal) ((win0_3.rect t).emb (ix2 (Fin.castLE (by decide : 2 ≤ 8) r) j)) = _
  refine congrArg _ (funext fun a => Fin.ext ?_)
  match a with
  | ⟨0, _⟩ => refine (win0_3.rect_emb_val t (ix2 (Fin.castLE (by decide : 2 ≤ 8) r) j) 0).trans ?_; rw [(idx_facts t).2.2.2.2.2.2.2.1]; show 0 * 8 + r.val = r.val; omega
  | ⟨1, _⟩ => refine (win0_3.rect_emb_val t (ix2 (Fin.castLE (by decide : 2 ≤ 8) r) j) 1).trans ?_; rw [(idx_facts t).2.2.2.2.2.2.2.2.1]; show 0 * 16 + j.val = j.val; omega

theorem blk4_at (t : Fin cfg0.N) (r : Fin 2) :
    iblk m c 4 t (ix2 (Fin.castLE (by decide : 2 ≤ 8) r) (0 : Fin 1)) = m ((c : Thread nD τ).loc main_arg4) (ix1 r) := by
  refine Eq.trans ?_ (v8_at m c r)
  show (V m c main_call0_v8 : S8x1.Idx → EReal) ((win0_4.rect t).emb (ix2 (Fin.castLE (by decide : 2 ≤ 8) r) (0 : Fin 1))) = _
  refine congrArg _ (funext fun a => Fin.ext ?_)
  match a with
  | ⟨0, _⟩ => refine (win0_4.rect_emb_val t (ix2 (Fin.castLE (by decide : 2 ≤ 8) r) (0 : Fin 1)) 0).trans ?_; rw [(idx_facts t).2.2.2.2.2.2.2.2.2.1]; show 0 * 8 + r.val = r.val; omega
  | ⟨1, _⟩ => refine (win0_4.rect_emb_val t (ix2 (Fin.castLE (by decide : 2 ≤ 8) r) (0 : Fin 1)) 1).trans ?_; rw [(idx_facts t).2.2.2.2.2.2.2.2.2.2]; show 0 * 1 + 0 = 0; omega

/-- A column of the slab inside the array holds the features of the sample at that column's position. -/
theorem slab_at (t : Fin cfg0.N) (k : Fin 16) (q : Fin 131072) (n : Fin 1000000)
    (hq : q.val < win0_5.xsize (grid0.coords t) 0) (hn : t.val * 131072 + q.val = n.val) :
    slab m c t (ix2 k q) = m ((c : Thread nD τ).loc main_arg0) (ix2 n k) := by
  have h0 : k.val < win0_0.xsize (grid0.coords t) 0 := by rw [(cuts t).1]; exact k.isLt
  have h1 : q.val < win0_0.xsize (grid0.coords t) 1 := by rw [(cuts t).2.1]; exact hq
  let y : (win0_0.xblock (grid0.coords t)).Idx := fun a => match a with
    | ⟨0, _⟩ => ⟨k.val, h0⟩
    | ⟨1, _⟩ => ⟨q.val, h1⟩
  have e : (ix2 k q : S16x131072.Idx) = win0_0.xinj (grid0.coords t) y :=
    funext fun a => match a with | ⟨0, _⟩ => rfl | ⟨1, _⟩ => rfl
  unfold slab
  rw [e, win0_0.fill_xinj]
  exact blk0_at m c t y k n rfl hn

/-! ## The results -/

/-- What point `t` writes back into result 0 is the block there of output 0 of every sample. -/
theorem flushed5 (t : Fin cfg0.N) :
    (dats m 0 c).flushed (5 : Fin 7) t
      = ((cfg0.win 5).blk t).view.read (Elt Ideal) (Mlp.outputs (m ((c : Thread nD τ).loc main_arg0)) (m ((c : Thread nD τ).loc main_arg1))
          (m ((c : Thread nD τ).loc main_arg2)) (m ((c : Thread nD τ).loc main_arg3)) (m ((c : Thread nD τ).loc main_arg4)) 0) := by
  funext y
  have hN : grid0.N = 8 := N_0
  have hq : (y 0).val < win0_5.xsize (grid0.coords t) 0 := (y 0).isLt
  have hq' : (y 0).val < 131072 := lt_of_lt_of_le hq (win0_5.xsize_le _ 0)
  have hq5 : (y 0).val < win0_5.xsize (grid0.coords t) 0 := by rw [(geom t).2.1]; rw [(geom t).2.1] at hq; exact hq
  have hn' : t.val * 131072 + (y 0).val < 1000000 := by
    rw [(geom t).2.1] at hq; have := t.isLt; omega
  have e : win0_5.xinj (grid0.coords t) y = ix1 (⟨(y 0).val, hq'⟩ : Fin 131072) :=
    funext fun a => match a with | ⟨0, _⟩ => rfl
  have lhs : (dats m 0 c).flushed (5 : Fin 7) t y
      = row (slab m c t) (iblk m c 1 t) (iblk m c 2 t) (iblk m c 3 t) (iblk m c 4 t) (Fin.castLE (by decide : 2 ≤ 8) (0 : Fin 2)) ⟨(y 0).val, hq'⟩ := by
    show k0_pay2 (F := Ideal) (slab m c t) (iblk m c 1 t) (iblk m c 2 t) (iblk m c 3 t) (iblk m c 4 t) (win0_5.xinj (grid0.coords t) y) = _
    rw [e, pay2_apply]; rfl
  have rhs : ((cfg0.win 5).blk t).view.read (Elt Ideal) (Mlp.outputs (m ((c : Thread nD τ).loc main_arg0)) (m ((c : Thread nD τ).loc main_arg1))
        (m ((c : Thread nD τ).loc main_arg2)) (m ((c : Thread nD τ).loc main_arg3)) (m ((c : Thread nD τ).loc main_arg4)) 0) y
      = Mlp.output (m ((c : Thread nD τ).loc main_arg0)) (m ((c : Thread nD τ).loc main_arg1))
        (m ((c : Thread nD τ).loc main_arg2)) (m ((c : Thread nD τ).loc main_arg3)) (m ((c : Thread nD τ).loc main_arg4)) 0 ⟨t.val * 131072 + (y 0).val, hn'⟩ := by
    show Mlp.outputs _ _ _ _ _ 0 ((win0_5.rect t).emb y) = _
    unfold Mlp.outputs
    refine congrArg _ (Fin.ext ?_)
    refine (win0_5.rect_emb_val t y 0).trans ?_
    rw [(geom t).1]; rfl
  rw [lhs, rhs]
  exact row_eq_output _ _ _ _ _ _ _ _ _ _ (0 : Fin 2) ⟨(y 0).val, hq'⟩ ⟨t.val * 131072 + (y 0).val, hn'⟩
    (fun k => slab_at m c t k ⟨(y 0).val, hq'⟩ ⟨t.val * 131072 + (y 0).val, hn'⟩ hq5 rfl)
    (fun j k => blk1_at m c t j k) (fun j => blk2_at m c t j) (fun j => blk3_at m c t 0 j) (blk4_at m c t 0)

/-- An entry of result 0 lies in block `t` when it is one of that block's entries inside the array. -/
theorem mem_blk5 (t : Fin cfg0.N) (i : S1000000.Idx) :
    i ∈ ((cfg0.win 5).blk t).view.set ↔ win0_5.index t 0 * 131072 ≤ (i 0).val
      ∧ (i 0).val < win0_5.index t 0 * 131072 + win0_5.xsize (grid0.coords t) 0 := by
  show i ∈ ((View.whole main_v0_0).slice (win0_5.rect t)).set ↔ _
  rw [View.set_slice_whole, Rect.mem_set_unit]
  exact ⟨fun h => h 0, fun h a => match a with | ⟨0, _⟩ => h⟩

/-- Every entry of result 0 lies in the block of the point its position divided by 131072 names. -/
theorem cover5 (i : S1000000.Idx) :
    ∃ t : Fin cfg0.N, (cfg0.win 5).flush t = true ∧ i ∈ ((cfg0.win 5).blk t).view.set := by
  have hi : (i 0).val < 1000000 := (i 0).isLt
  have hN : grid0.N = 8 := N_0
  have ht : (i 0).val / 131072 < grid0.N := by rw [hN]; omega
  refine ⟨⟨(i 0).val / 131072, ht⟩, flush0_5 _, ?_⟩
  rw [mem_blk5, (geom ⟨(i 0).val / 131072, ht⟩).1, (geom ⟨(i 0).val / 131072, ht⟩).2.1]
  show (i 0).val / 131072 * 131072 ≤ (i 0).val
    ∧ (i 0).val < (i 0).val / 131072 * 131072 + min 131072 (1000000 - (i 0).val / 131072 * 131072)
  omega

/-- Result 0 ends holding output 0 of every sample. -/
theorem final5 : (dats m 0 c).arrAt (5 : Fin 7) cfg0.N
    = Mlp.outputs (m ((c : Thread nD τ).loc main_arg0)) (m ((c : Thread nD τ).loc main_arg1))
        (m ((c : Thread nD τ).loc main_arg2)) (m ((c : Thread nD τ).loc main_arg3)) (m ((c : Thread nD τ).loc main_arg4)) 0 :=
  (dats m 0 c).arrAt_eq_of_cover (5 : Fin 7) _ (fun t _ => flushed5 m c t) (cover5)

/-- What point `t` writes back into result 1 is the block there of output 1 of every sample. -/
theorem flushed6 (t : Fin cfg0.N) :
    (dats m 0 c).flushed (6 : Fin 7) t
      = ((cfg0.win 6).blk t).view.read (Elt Ideal) (Mlp.outputs (m ((c : Thread nD τ).loc main_arg0)) (m ((c : Thread nD τ).loc main_arg1))
          (m ((c : Thread nD τ).loc main_arg2)) (m ((c : Thread nD τ).loc main_arg3)) (m ((c : Thread nD τ).loc main_arg4)) 1) := by
  funext y
  have hN : grid0.N = 8 := N_0
  have hq : (y 0).val < win0_6.xsize (grid0.coords t) 0 := (y 0).isLt
  have hq' : (y 0).val < 131072 := lt_of_lt_of_le hq (win0_6.xsize_le _ 0)
  have hq5 : (y 0).val < win0_5.xsize (grid0.coords t) 0 := by rw [(geom t).2.1]; rw [(geom t).2.2.2] at hq; exact hq
  have hn' : t.val * 131072 + (y 0).val < 1000000 := by
    rw [(geom t).2.2.2] at hq; have := t.isLt; omega
  have e : win0_6.xinj (grid0.coords t) y = ix1 (⟨(y 0).val, hq'⟩ : Fin 131072) :=
    funext fun a => match a with | ⟨0, _⟩ => rfl
  have lhs : (dats m 0 c).flushed (6 : Fin 7) t y
      = row (slab m c t) (iblk m c 1 t) (iblk m c 2 t) (iblk m c 3 t) (iblk m c 4 t) (Fin.castLE (by decide : 2 ≤ 8) (1 : Fin 2)) ⟨(y 0).val, hq'⟩ := by
    show k0_pay3 (F := Ideal) (slab m c t) (iblk m c 1 t) (iblk m c 2 t) (iblk m c 3 t) (iblk m c 4 t) (win0_6.xinj (grid0.coords t) y) = _
    rw [e, pay3_apply]; rfl
  have rhs : ((cfg0.win 6).blk t).view.read (Elt Ideal) (Mlp.outputs (m ((c : Thread nD τ).loc main_arg0)) (m ((c : Thread nD τ).loc main_arg1))
        (m ((c : Thread nD τ).loc main_arg2)) (m ((c : Thread nD τ).loc main_arg3)) (m ((c : Thread nD τ).loc main_arg4)) 1) y
      = Mlp.output (m ((c : Thread nD τ).loc main_arg0)) (m ((c : Thread nD τ).loc main_arg1))
        (m ((c : Thread nD τ).loc main_arg2)) (m ((c : Thread nD τ).loc main_arg3)) (m ((c : Thread nD τ).loc main_arg4)) 1 ⟨t.val * 131072 + (y 0).val, hn'⟩ := by
    show Mlp.outputs _ _ _ _ _ 1 ((win0_6.rect t).emb y) = _
    unfold Mlp.outputs
    refine congrArg _ (Fin.ext ?_)
    refine (win0_6.rect_emb_val t y 0).trans ?_
    rw [(geom t).2.2.1]; rfl
  rw [lhs, rhs]
  exact row_eq_output _ _ _ _ _ _ _ _ _ _ (1 : Fin 2) ⟨(y 0).val, hq'⟩ ⟨t.val * 131072 + (y 0).val, hn'⟩
    (fun k => slab_at m c t k ⟨(y 0).val, hq'⟩ ⟨t.val * 131072 + (y 0).val, hn'⟩ hq5 rfl)
    (fun j k => blk1_at m c t j k) (fun j => blk2_at m c t j) (fun j => blk3_at m c t 1 j) (blk4_at m c t 1)

/-- An entry of result 1 lies in block `t` when it is one of that block's entries inside the array. -/
theorem mem_blk6 (t : Fin cfg0.N) (i : S1000000.Idx) :
    i ∈ ((cfg0.win 6).blk t).view.set ↔ win0_6.index t 0 * 131072 ≤ (i 0).val
      ∧ (i 0).val < win0_6.index t 0 * 131072 + win0_6.xsize (grid0.coords t) 0 := by
  show i ∈ ((View.whole main_v0_1).slice (win0_6.rect t)).set ↔ _
  rw [View.set_slice_whole, Rect.mem_set_unit]
  exact ⟨fun h => h 0, fun h a => match a with | ⟨0, _⟩ => h⟩

/-- Every entry of result 1 lies in the block of the point its position divided by 131072 names. -/
theorem cover6 (i : S1000000.Idx) :
    ∃ t : Fin cfg0.N, (cfg0.win 6).flush t = true ∧ i ∈ ((cfg0.win 6).blk t).view.set := by
  have hi : (i 0).val < 1000000 := (i 0).isLt
  have hN : grid0.N = 8 := N_0
  have ht : (i 0).val / 131072 < grid0.N := by rw [hN]; omega
  refine ⟨⟨(i 0).val / 131072, ht⟩, flush0_6 _, ?_⟩
  rw [mem_blk6, (geom ⟨(i 0).val / 131072, ht⟩).2.2.1, (geom ⟨(i 0).val / 131072, ht⟩).2.2.2]
  show (i 0).val / 131072 * 131072 ≤ (i 0).val
    ∧ (i 0).val < (i 0).val / 131072 * 131072 + min 131072 (1000000 - (i 0).val / 131072 * 131072)
  omega

/-- Result 1 ends holding output 1 of every sample. -/
theorem final6 : (dats m 0 c).arrAt (6 : Fin 7) cfg0.N
    = Mlp.outputs (m ((c : Thread nD τ).loc main_arg0)) (m ((c : Thread nD τ).loc main_arg1))
        (m ((c : Thread nD τ).loc main_arg2)) (m ((c : Thread nD τ).loc main_arg3)) (m ((c : Thread nD τ).loc main_arg4)) 1 :=
  (dats m 0 c).arrAt_eq_of_cover (6 : Fin 7) _ (fun t _ => flushed6 m c t) (cover6)

end Cert.KernelIdeal.Final

end
-- ==== Proof.RefValue.lean ====
/-
  The reference computes the perceptron's outputs.

  Read one operation at a time, the reference's hidden unit `j` of sample `n` is chosen by a comparison:
  `z` where `z` is at least zero and `c · z` elsewhere, `z = (∑ₖ X[n,k] · W1[k,j]) + b1[j]`; that is `max z (c · z)`
  for every extended real. Its result `r` at `n` is column `r` of `(∑ⱼ hidden[n,j] · W2[j,r]) + b2[r]`.
-/
import proofs.«142265_g89618787598748_cont_9to1c4b_779_6_alg».proof.Proof.Gen.ReferenceIdeal.Read
import proofs.«142265_g89618787598748_cont_9to1c4b_779_6_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Read Cert.Mlp
open Idealize.ShloMosaic Idealize.ShloMosaic.ValueIdx
open scoped BigOperators

variable (x0 : (⟨S1000000x16, .f32⟩ : BufTy).Contents (Elt Ideal)) (x1 : (⟨S16x16, .f32⟩ : BufTy).Contents (Elt Ideal))
  (x2 : (⟨S16, .f32⟩ : BufTy).Contents (Elt Ideal)) (x3 : (⟨S16x2, .f32⟩ : BufTy).Contents (Elt Ideal))
  (x4 : (⟨S2, .f32⟩ : BufTy).Contents (Elt Ideal))

/-! ## The index maps of the generated read lemmas, at coordinates -/

theorem l0 (n : Fin 1000000) (j k : Fin 16) : lidx_main_v0 (ix2 n j) k = ix2 n k :=
  funext fun a => match a with | ⟨0, _⟩ => rfl | ⟨1, _⟩ => rfl
theorem r0 (n : Fin 1000000) (j k : Fin 16) : ridx_main_v0 (ix2 n j) k = ix2 k j :=
  funext fun a => match a with | ⟨0, _⟩ => rfl | ⟨1, _⟩ => rfl
theorem i1 (n : Fin 1000000) (j : Fin 16) : idx_main_v1 (idx_main_v2 (ix2 n j)) = ix1 j :=
  funext fun a => match a with | ⟨0, _⟩ => rfl
theorem l9 (n : Fin 1000000) (r : Fin 2) (k : Fin 16) : lidx_main_v9 (ix2 n r) k = ix2 n k :=
  funext fun a => match a with | ⟨0, _⟩ => rfl | ⟨1, _⟩ => rfl
theorem r9 (n : Fin 1000000) (r : Fin 2) (k : Fin 16) : ridx_main_v9 (ix2 n r) k = ix2 k r :=
  funext fun a => match a with | ⟨0, _⟩ => rfl | ⟨1, _⟩ => rfl
theorem i10 (n : Fin 1000000) (r : Fin 2) : idx_main_v10 (idx_main_v11 (ix2 n r)) = ix1 r :=
  funext fun a => match a with | ⟨0, _⟩ => rfl
theorem i13 (n : Fin 1000000) : idx_main_v13 (idx_main_v14 (ix1 n)) = ix2 n (0 : Fin 2) :=
  funext fun a => match a with | ⟨0, _⟩ => Fin.ext (Nat.div_one _) | ⟨1, _⟩ => rfl
theorem i15 (n : Fin 1000000) : idx_main_v15 (idx_main_v16 (ix1 n)) = ix2 n (1 : Fin 2) :=
  funext fun a => match a with | ⟨0, _⟩ => Fin.ext (Nat.div_one _) | ⟨1, _⟩ => rfl

/-! ## The stages at coordinates -/

/-- The first layer before the rectifier. -/
theorem pre_at (n : Fin 1000000) (j : Fin 16) :
    val_main_v3 (F := Ideal) x0 x1 x2 (ix2 n j) = (∑ k : Fin 16, x0 (ix2 n k) * x1 (ix2 k j)) + x2 (ix1 j) := by
  rw [val_main_v3_apply, val_main_v0_apply, val_main_v2_apply, val_main_v1_apply]
  simp only [l0, r0, i1]
  rfl

/-- The hidden unit: the value chosen by the comparison is the larger of `z` and `c · z`. -/
theorem hidden_at (n : Fin 1000000) (j : Fin 16) :
    val_main_v8 (F := Ideal) x0 x1 x2 (ix2 n j) = Mlp.hidden x0 x1 x2 n j := by
  rw [val_main_v8_apply, val_main_v5_apply, val_main_v7_apply, val_main_v4_apply, val_main_cst_apply, val_main_v6_apply,
    val_main_cst_0_apply, pre_at]
  show Scalar.select (Ideal.cmp .oge _ (Ideal.ofBits .f32 0x00000000#32)) _ (Ideal.ofBits .f32 0x3C23D70A#32 * _) = _
  rw [Ideal.ofBits_zero_f32, select_ge_zero, ← max_slope_eq_ite]
  rfl

/-- The second layer at `(n, r)`. -/
theorem out_at (n : Fin 1000000) (r : Fin 2) :
    val_main_v12 (F := Ideal) x0 x1 x2 x3 x4 (ix2 n r) = Mlp.output x0 x1 x2 x3 x4 r n := by
  rw [val_main_v12_apply, val_main_v9_apply, val_main_v11_apply, val_main_v10_apply]
  simp only [l9, r9, i10, hidden_at]
  rfl

/-- The first result is output 0 of every sample. -/
theorem result0 : val_main_v14 (F := Ideal) x0 x1 x2 x3 x4 = Mlp.outputs x0 x1 x2 x3 x4 0 := by
  funext i
  obtain ⟨n, rfl⟩ : ∃ n : Fin 1000000, i = ix1 n := ⟨i 0, eq_ix1 i⟩
  rw [val_main_v14_apply, val_main_v13_apply, i13, out_at]
  rfl

/-- The second result is output 1 of every sample. -/
theorem result1 : val_main_v16 (F := Ideal) x0 x1 x2 x3 x4 = Mlp.outputs x0 x1 x2 x3 x4 1 := by
  funext i
  obtain ⟨n, rfl⟩ : ∃ n : Fin 1000000, i = ix1 n := ⟨i 0, eq_ix1 i⟩
  rw [val_main_v16_apply, val_main_v15_apply, i15, out_at]
  rfl

end Cert.ReferenceIdeal.RefValue

end
-- ==== Proof.lean ====
/-
  A two-layer perceptron with a leaky rectifier over a million samples of sixteen features: the kernel against
  its reference, equal as extended reals.

  The kernel works on the transposed samples, 131072 columns at a time over eight grid points: each point multiplies
  the first layer's transposed weights into the slab, adds the bias column, takes  max z (c·z),  multiplies by the
  second layer's transposed weights (padded to eight rows) and adds its bias column, and writes rows 0 and 1 to the
  two results. The reference multiplies the samples by the weights, chooses  z  where  0 ≤ z  and  c·z  elsewhere, and
  slices the two columns of the second layer. The two agree at every sample: products commute, the padding rows are
  never written, and  max z (c·z)  is the chosen value for every extended real since  0 < c ≤ 1  — no sum is
  re-associated across an infinity, so the inputs' finiteness is not used.

  The last slab overhangs the array by 48576 columns whose contents nothing names; a result column is computed from
  the same slab column only, and only the 82496 columns inside the array are written back, so the results do not
  depend on them. The frame of the word-level program holds whatever the buffers contain, since the body
  branches on and checks nothing it loads; the ideal pass rewrote nothing.
-/
import proofs.«142265_g89618787598748_cont_9to1c4b_779_6_alg».proof.Defs
import proofs.«142265_g89618787598748_cont_9to1c4b_779_6_alg».proof.Proof.Gen.Kernel
import proofs.«142265_g89618787598748_cont_9to1c4b_779_6_alg».proof.Proof.Gen.KernelIdeal
import proofs.«142265_g89618787598748_cont_9to1c4b_779_6_alg».proof.Proof.Gen.ReferenceIdeal
import proofs.«142265_g89618787598748_cont_9to1c4b_779_6_alg».proof.Proof.Gen.Pre_finite_inputs
import proofs.«142265_g89618787598748_cont_9to1c4b_779_6_alg».proof.Proof.Gen.ReferenceIdeal.Read
import proofs.«142265_g89618787598748_cont_9to1c4b_779_6_alg».proof.Proof.WordFrame
import proofs.«142265_g89618787598748_cont_9to1c4b_779_6_alg».proof.Proof.Final
import proofs.«142265_g89618787598748_cont_9to1c4b_779_6_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-- The word-level program runs and leaves its arguments: the run that constrains no staging buffer. -/
theorem frame_p : Cert.frame_Kernel := fun m ρ _ => Cert.Kernel.Rel.frame (F := Bits) m ρ

/-- The idealized program runs and leaves its arguments: the run with every buffer named. -/
theorem frame_pi : Cert.frame_KernelIdeal := fun m ρ _ =>
  Cert.KernelIdeal.Gen.frame_of m ρ (Cert.KernelIdeal.Data.dats m) (fun _ _ => rfl) (Cert.KernelIdeal.Data.run_main m ρ)

/-- The reference runs and leaves its arguments: its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- Both programs end with result `r` holding output `r` of every sample, as functions of the shared arguments. -/
theorem algebraic : Cert.algebraic_KernelIdeal_ReferenceIdeal := by
  intro m ρ m' ρ' _ hagree
  refine ⟨fun c => Cert.Mlp.outputs (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) 0,
    fun c => Cert.Mlp.outputs (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) 1, ?_, ?_⟩
  · refine (θ_run Cert.KernelIdeal.defs _ _).mono (fun r h c => ⟨?_, ?_, ?_, ?_, ?_, ?_, ?_⟩) (Cert.KernelIdeal.Data.run_main m ρ)
    · exact ((h c).1 5).trans (Cert.KernelIdeal.Final.final5 m c)
    · exact ((h c).1 6).trans (Cert.KernelIdeal.Final.final6 m c)
    · exact ((h c).2 Cert.KernelIdeal.main_arg0 (Pipeline.mem_restRefs_of Cert.KernelIdeal.main_arg0 (by decide) (by decide))).trans (Cert.KernelIdeal.Gen.V_main_arg0 m c)
    · exact ((h c).2 Cert.KernelIdeal.main_arg1 (Pipeline.mem_restRefs_of Cert.KernelIdeal.main_arg1 (by decide) (by decide))).trans (Cert.KernelIdeal.Gen.V_main_arg1 m c)
    · exact ((h c).2 Cert.KernelIdeal.main_arg2 (Pipeline.mem_restRefs_of Cert.KernelIdeal.main_arg2 (by decide) (by decide))).trans (Cert.KernelIdeal.Gen.V_main_arg2 m c)
    · exact ((h c).2 Cert.KernelIdeal.main_arg3 (Pipeline.mem_restRefs_of Cert.KernelIdeal.main_arg3 (by decide) (by decide))).trans (Cert.KernelIdeal.Gen.V_main_arg3 m c)
    · exact ((h c).2 Cert.KernelIdeal.main_arg4 (Pipeline.mem_restRefs_of Cert.KernelIdeal.main_arg4 (by decide) (by decide))).trans (Cert.KernelIdeal.Gen.V_main_arg4 m c)
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.Read.val_main_v14_eq, Cert.ReferenceIdeal.RefValue.result0,
        (hagree c).1, (hagree c).2.1, (hagree c).2.2.1, (hagree c).2.2.2.1, (hagree c).2.2.2.2]
    · rw [Cert.ReferenceIdeal.Read.val_main_v16_eq, Cert.ReferenceIdeal.RefValue.result1,
        (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
